-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8x16 : Shape := ⟨3, ![100000, 8, 16]⟩
abbrev S600000x8x16 : Shape := ⟨3, ![600000, 8, 16]⟩
abbrev S600000 : Shape := ⟨1, ![600000]⟩
abbrev S20000 : Shape := ⟨1, ![20000]⟩
abbrev S_ : Shape := ⟨0, ![]⟩

class Facts : Prop where
  bcast_S_S100000x8x16 : S_.BroadcastsInDim S100000x8x16 (![] : Fin 0 → Fin S100000x8x16.rank)
  reducesTo_S100000x8x16_S_d0_1_2 : S100000x8x16.ReducesTo [0, 1, 2] S_
  h_S_ : 0 < S_.numel
  bcast_S_S600000x8x16 : S_.BroadcastsInDim S600000x8x16 (![] : Fin 0 → Fin S600000x8x16.rank)
  reducesTo_S600000x8x16_S_d0_1_2 : S600000x8x16.ReducesTo [0, 1, 2] S_

variable [Facts]

def fn {F : FTy → Type} [FloatOps F] (main_arg0 : FVec F S100000x8x16 .f32) (main_arg1 : FVec F S600000x8x16 .f32) (main_arg2 : IVec S600000 32) (main_arg3 : IVec S20000 32) : IVec S_ 1 :=
  let main_v0 : FVec F S100000x8x16 .f32 := Host.absf main_arg0
  let main_cst : FVec F S_ .f32 := constant S_ .f32 0x7F800000#32
  let main_v1 : FVec F S100000x8x16 .f32 := broadcastInDim S100000x8x16 ![] bcast_S_S100000x8x16 main_cst
  let main_v2 : IVec S100000x8x16 1 := cmpf .olt main_v0 main_v1
  let main_c : IVec S_ 1 := constantI S_ 1 1#1
  let main_v3 : IVec S_ 1 := (fun x v => Host.reduce IntOp.andi x v reducesTo_S100000x8x16_S_d0_1_2 h_S_) main_v2 main_c
  let main_v4 : FVec F S600000x8x16 .f32 := Host.absf main_arg1
  let main_cst_0 : FVec F S_ .f32 := constant S_ .f32 0x7F800000#32
  let main_v5 : FVec F S600000x8x16 .f32 := broadcastInDim S600000x8x16 ![] bcast_S_S600000x8x16 main_cst_0
  let main_v6 : IVec S600000x8x16 1 := cmpf .olt main_v4 main_v5
  let main_c_1 : IVec S_ 1 := constantI S_ 1 1#1
  let main_v7 : IVec S_ 1 := (fun x v => Host.reduce IntOp.andi x v reducesTo_S600000x8x16_S_d0_1_2 h_S_) main_v6 main_c_1
  let main_v8 : IVec S_ 1 := andi main_v3 main_v7
  main_v8
-- ==== Kernel.lean ====
abbrev S100000x8x16 : Shape := ⟨3, ![100000, 8, 16]⟩
abbrev S600000x8x16 : Shape := ⟨3, ![600000, 8, 16]⟩
abbrev S600000 : Shape := ⟨1, ![600000]⟩
abbrev S20000 : Shape := ⟨1, ![20000]⟩
abbrev S100000x128 : Shape := ⟨2, ![100000, 128]⟩
abbrev S600000x128 : Shape := ⟨2, ![600000, 128]⟩
abbrev S_ : Shape := ⟨0, ![]⟩
abbrev S600000x1 : Shape := ⟨2, ![600000, 1]⟩
abbrev S603136x128 : Shape := ⟨2, ![603136, 128]⟩
abbrev S8x603136 : Shape := ⟨2, ![8, 603136]⟩
abbrev S4864x128 : Shape := ⟨2, ![4864, 128]⟩
abbrev S8x4864 : Shape := ⟨2, ![8, 4864]⟩
abbrev S4864x8x16 : Shape := ⟨3, ![4864, 8, 16]⟩
abbrev S4864x8 : Shape := ⟨2, ![4864, 8]⟩
abbrev S4864 : Shape := ⟨1, ![4864]⟩
abbrev S4864x1 : Shape := ⟨2, ![4864, 1]⟩
abbrev S8x600000 : Shape := ⟨2, ![8, 600000]⟩
abbrev S600000x8 : Shape := ⟨2, ![600000, 8]⟩
abbrev S600000x8x1 : Shape := ⟨3, ![600000, 8, 1]⟩
abbrev S20000x1 : Shape := ⟨2, ![20000, 1]⟩
abbrev S20000x128 : Shape := ⟨2, ![20000, 128]⟩
abbrev S4000x128 : Shape := ⟨2, ![4000, 128]⟩
abbrev S4000x8x16 : Shape := ⟨3, ![4000, 8, 16]⟩
abbrev S4000x16 : Shape := ⟨2, ![4000, 16]⟩
abbrev S4000x1x16 : Shape := ⟨3, ![4000, 1, 16]⟩
abbrev S20000x8x16 : Shape := ⟨3, ![20000, 8, 16]⟩

abbrev nBuf : Space → Nat
  | .hbm => 44
  | .vmem => 10
  | .smem => 0
  | _ => 0

abbrev bufTy : (tb : Table) → Fin (tcTables nBuf tb) → BufTy
  | .hbm, ⟨0, _⟩ => ⟨S100000x8x16, .f32⟩
  | .hbm, ⟨1, _⟩ => ⟨S600000x8x16, .f32⟩
  | .hbm, ⟨2, _⟩ => ⟨S600000, .i32⟩
  | .hbm, ⟨3, _⟩ => ⟨S20000, .i32⟩
  | .hbm, ⟨4, _⟩ => ⟨S100000x128, .f32⟩
  | .hbm, ⟨5, _⟩ => ⟨S600000x128, .f32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S_, .f32⟩
  | .hbm, ⟨16, _⟩ => ⟨S_, .f32⟩
  | .hbm, ⟨17, _⟩ => ⟨S603136x128, .f32⟩
  | .hbm, ⟨18, _⟩ => ⟨S_, .f32⟩
  | .hbm, ⟨19, _⟩ => ⟨S_, .f32⟩
  | .hbm, ⟨20, _⟩ => ⟨S603136x128, .f32⟩
  | .hbm, ⟨21, _⟩ => ⟨S8x603136, .f32⟩
  | .hbm, ⟨22, _⟩ => ⟨S8x600000, .f32⟩
  | .hbm, ⟨23, _⟩ => ⟨S600000x8, .f32⟩
  | .hbm, ⟨24, _⟩ => ⟨S600000x8x1, .f32⟩
  | .hbm, ⟨25, _⟩ => ⟨S600000x8x1, .f32⟩
  | .hbm, ⟨26, _⟩ => ⟨S600000x8x16, .f32⟩
  | .hbm, ⟨27, _⟩ => ⟨S600000x8x16, .f32⟩
  | .hbm, ⟨28, _⟩ => ⟨S600000x128, .f32⟩
  | .hbm, ⟨29, _⟩ => ⟨S_, .f32⟩
  | .hbm, ⟨30, _⟩ => ⟨S100000x128, .f32⟩
  | .hbm, ⟨31, _⟩ => ⟨S600000x1, .i32⟩
  | .hbm, ⟨32, _⟩ => ⟨S100000x128, .f32⟩
  | .hbm, ⟨33, _⟩ => ⟨S_, .i32⟩
  | .hbm, ⟨34, _⟩ => ⟨S20000, .i32⟩
  | .hbm, ⟨35, _⟩ => ⟨S20000, .i1⟩
  | .hbm, ⟨36, _⟩ => ⟨S_, .i32⟩
  | .hbm, ⟨37, _⟩ => ⟨S20000, .i32⟩
  | .hbm, ⟨38, _⟩ => ⟨S20000, .i32⟩
  | .hbm, ⟨39, _⟩ => ⟨S20000, .i32⟩
  | .hbm, ⟨40, _⟩ => ⟨S20000x1, .i32⟩
  | .hbm, ⟨41, _⟩ => ⟨S20000x128, .f32⟩
  | .hbm, ⟨42, _⟩ => ⟨S20000x128, .f32⟩
  | .hbm, ⟨43, _⟩ => ⟨S20000x8x16, .f32⟩
  | .local _ .vmem, ⟨0, _⟩ => ⟨S4864x128, .f32⟩
  | .local _ .vmem, ⟨1, _⟩ => ⟨S4864x128, .f32⟩
  | .local _ .vmem, ⟨2, _⟩ => ⟨S4864x128, .f32⟩
  | .local _ .vmem, ⟨3, _⟩ => ⟨S4864x128, .f32⟩
  | .local _ .vmem, ⟨4, _⟩ => ⟨S8x4864, .f32⟩
  | .local _ .vmem, ⟨5, _⟩ => ⟨S8x4864, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | _, _ => ⟨S100000x8x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_call0_v0 : Ref sig .tc := ⟨.hbm, 16, rfl⟩
abbrev main_v9 : Ref sig .tc := ⟨.hbm, 17, rfl⟩
abbrev main_cst_1 : Ref sig .tc := ⟨.hbm, 18, rfl⟩
abbrev main_call1_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![124], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4864x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4864x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4864 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  shapeCasts_S100000x8x16_S100000x128 : S100000x8x16.ShapeCasts S100000x128
  shapeCasts_S600000x8x16_S600000x128 : S600000x8x16.ShapeCasts S600000x128
  bcast_S_S600000 : S_.BroadcastsInDim S600000 (![] : Fin 0 → Fin S600000.rank)
  bcast_S600000_S600000x1_0 : S600000.BroadcastsInDim S600000x1 (![0] : Fin 1 → Fin S600000x1.rank)
  pads_S600000x128_S603136x128_031360_000 : S600000x128.Pads (![0, 0] : Fin 2 → Nat) ![3136, 0] ![0, 0] S603136x128
  h_S_ : 0 < S_.numel
  inb_S4864x128_S4864x128_0_0 : ∀ a, (![0, 0] : Fin 2 → Nat) a + S4864x128.size a ≤ S4864x128.size a
  h_S4864x128 : 0 < S4864x128.numel
  shapeCasts_S4864x128_S4864x128 : S4864x128.ShapeCasts S4864x128
  shapeCasts_S4864x128_S4864x8x16 : S4864x128.ShapeCasts S4864x8x16
  reduces_S4864x8x16_S4864x8 : S4864x8x16.Reduces [2] S4864x8
  reduces_S4864x8_S4864 : S4864x8.Reduces [1] S4864
  shapeCasts_S4864_S4864x1 : S4864.ShapeCasts S4864x1
  broadcasts_S4864x1_S4864x8 : S4864x1.Broadcasts S4864x8
  transposes_S4864x8_p1_0_S8x4864 : S4864x8.Transposes [1, 0] S8x4864
  inb_S8x4864_S8x4864_0_0 : ∀ a, (![0, 0] : Fin 2 → Nat) a + S8x4864.size a ≤ S8x4864.size a
  h_S8x4864 : 0 < S8x4864.numel
  slices_S8x603136_S8x600000_0_0 : S8x603136.Slices ![0, 0] S8x600000
  transposes_S8x600000_S600000x8_1_0 : S8x600000.Transposes [1, 0] S600000x8
  bcast_S600000x8_S600000x8x1_0_1 : S600000x8.BroadcastsInDim S600000x8x1 (![0, 1] : Fin 2 → Fin S600000x8x1.rank)
  bcast_S600000x8x1_S600000x8x16_0_1_2 : S600000x8x1.BroadcastsInDim S600000x8x16 (![0, 1, 2] : Fin 3 → Fin S600000x8x16.rank)
  bcast_S_S100000x128 : S_.BroadcastsInDim S100000x128 (![] : Fin 0 → Fin S100000x128.rank)
  bcast_S_S20000 : S_.BroadcastsInDim S20000 (![] : Fin 0 → Fin S20000.rank)
  bcast_S20000_S20000x1_0 : S20000.BroadcastsInDim S20000x1 (![0] : Fin 1 → Fin S20000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  shapeCasts_S4000x128_S4000x8x16 : S4000x128.ShapeCasts S4000x8x16
  reduces_S4000x8x16_S4000x16 : S4000x8x16.Reduces [1] S4000x16
  shapeCasts_S4000x16_S4000x1x16 : S4000x16.ShapeCasts S4000x1x16
  broadcasts_S4000x1x16_S4000x8x16 : S4000x1x16.Broadcasts S4000x8x16
  shapeCasts_S4000x8x16_S4000x128 : S4000x8x16.ShapeCasts S4000x128
  shapeCasts_S20000x128_S20000x8x16 : S20000x128.ShapeCasts S20000x8x16
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  gather_S100000x128_S20000x1_S20000x128_1_0_n_n_0_1_1128_wf : GatherDims.WF S100000x128 S20000x1 S20000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4864x128.size a ≤ S603136x128.size a
  hwx0_0 : ∀ i : grid0.Coords, EltTy.bits .f32 = 32 ∨ (Rect.block (s := S603136x128) S4864x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4864x128.size a ≤ S603136x128.size a
  hwx0_1 : ∀ i : grid0.Coords, EltTy.bits .f32 = 32 ∨ (Rect.block (s := S603136x128) S4864x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x4864.size a ≤ S8x603136.size a
  hwx0_2 : ∀ i : grid0.Coords, EltTy.bits .f32 = 32 ∨ (Rect.block (s := S8x603136) S8x4864.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S20000x128.size a
  hwx1_0 : ∀ i : grid1.Coords, EltTy.bits .f32 = 32 ∨ (Rect.block (s := S20000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S20000x128.size a
  hwx1_1 : ∀ i : grid1.Coords, EltTy.bits .f32 = 32 ∨ (Rect.block (s := S20000x128) S4000x128.size (cc1_transform_1 i) (hinb1_1 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def gather_S100000x128_S20000x1_S20000x128_1_0_n_n_0_1_1128 : GatherDims S100000x128 S20000x1 S20000x128 where
  offsetDims := [1]
  collapsedSliceDims := [0]
  operandBatchingDims := []
  startIndicesBatchingDims := []
  startIndexMap := [0]
  indexVectorDim := 1
  sliceSizes := ![1, 128]
  wf := gather_S100000x128_S20000x1_S20000x128_1_0_n_n_0_1_1128_wf

abbrev win0_0 : Pipeline.Window sig grid0 :=
  Pipeline.Window.ofSpec (Memref.whole main_v9) S4864x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4864x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S8x4864.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S4000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x8x16 : Shape := ⟨3, ![100000, 8, 16]⟩
abbrev S600000x8x16 : Shape := ⟨3, ![600000, 8, 16]⟩
abbrev S600000 : Shape := ⟨1, ![600000]⟩
abbrev S20000 : Shape := ⟨1, ![20000]⟩
abbrev S_ : Shape := ⟨0, ![]⟩
abbrev S600000x1 : Shape := ⟨2, ![600000, 1]⟩
abbrev S600000x8 : Shape := ⟨2, ![600000, 8]⟩
abbrev S600000x8x1 : Shape := ⟨3, ![600000, 8, 1]⟩
abbrev S20000x1 : Shape := ⟨2, ![20000, 1]⟩
abbrev S20000x8x16 : Shape := ⟨3, ![20000, 8, 16]⟩
abbrev S20000x16 : Shape := ⟨2, ![20000, 16]⟩
abbrev S20000x1x16 : Shape := ⟨3, ![20000, 1, 16]⟩

abbrev nBuf : Space → Nat
  | .hbm => 59
  | .vmem => 0
  | .smem => 0
  | _ => 0

abbrev bufTy : (tb : Table) → Fin (tcTables nBuf tb) → BufTy
  | .hbm, ⟨0, _⟩ => ⟨S100000x8x16, .f32⟩
  | .hbm, ⟨1, _⟩ => ⟨S600000x8x16, .f32⟩
  | .hbm, ⟨2, _⟩ => ⟨S600000, .i32⟩
  | .hbm, ⟨3, _⟩ => ⟨S20000, .i32⟩
  | .hbm, ⟨4, _⟩ => ⟨S_, .i32⟩
  | .hbm, ⟨5, _⟩ => ⟨S600000, .i32⟩
  | .hbm, ⟨6, _⟩ => ⟨S600000, .i1⟩
  | .hbm, ⟨7, _⟩ => ⟨S_, .i32⟩
  | .hbm, ⟨8, _⟩ => ⟨S600000, .i32⟩
  | .hbm, ⟨9, _⟩ => ⟨S600000, .i32⟩
  | .hbm, ⟨10, _⟩ => ⟨S600000, .i32⟩
  | .hbm, ⟨11, _⟩ => ⟨S600000x1, .i32⟩
  | .hbm, ⟨12, _⟩ => ⟨S600000x8x16, .f32⟩
  | .hbm, ⟨13, _⟩ => ⟨S600000x8x16, .f32⟩
  | .hbm, ⟨14, _⟩ => ⟨S_, .f32⟩
  | .hbm, ⟨15, _⟩ => ⟨S600000x8, .f32⟩
  | .hbm, ⟨16, _⟩ => ⟨S_, .f32⟩
  | .hbm, ⟨17, _⟩ => ⟨S600000, .f32⟩
  | .hbm, ⟨18, _⟩ => ⟨S_, .f32⟩
  | .hbm, ⟨19, _⟩ => ⟨S600000, .f32⟩
  | .hbm, ⟨20, _⟩ => ⟨S600000, .f32⟩
  | .hbm, ⟨21, _⟩ => ⟨S600000x1, .f32⟩
  | .hbm, ⟨22, _⟩ => ⟨S600000x8, .f32⟩
  | .hbm, ⟨23, _⟩ => ⟨S600000x8, .f32⟩
  | .hbm, ⟨24, _⟩ => ⟨S600000x8, .f32⟩
  | .hbm, ⟨25, _⟩ => ⟨S_, .f32⟩
  | .hbm, ⟨26, _⟩ => ⟨S600000, .f32⟩
  | .hbm, ⟨27, _⟩ => ⟨S600000x1, .f32⟩
  | .hbm, ⟨28, _⟩ => ⟨S600000x8, .f32⟩
  | .hbm, ⟨29, _⟩ => ⟨S600000x8, .f32⟩
  | .hbm, ⟨30, _⟩ => ⟨S600000x8x1, .f32⟩
  | .hbm, ⟨31, _⟩ => ⟨S600000x8x16, .f32⟩
  | .hbm, ⟨32, _⟩ => ⟨S600000x8x16, .f32⟩
  | .hbm, ⟨33, _⟩ => ⟨S_, .f32⟩
  | .hbm, ⟨34, _⟩ => ⟨S100000x8x16, .f32⟩
  | .hbm, ⟨35, _⟩ => ⟨S600000x1, .i32⟩
  | .hbm, ⟨36, _⟩ => ⟨S100000x8x16, .f32⟩
  | .hbm, ⟨37, _⟩ => ⟨S_, .i32⟩
  | .hbm, ⟨38, _⟩ => ⟨S20000, .i32⟩
  | .hbm, ⟨39, _⟩ => ⟨S20000, .i1⟩
  | .hbm, ⟨40, _⟩ => ⟨S_, .i32⟩
  | .hbm, ⟨41, _⟩ => ⟨S20000, .i32⟩
  | .hbm, ⟨42, _⟩ => ⟨S20000, .i32⟩
  | .hbm, ⟨43, _⟩ => ⟨S20000, .i32⟩
  | .hbm, ⟨44, _⟩ => ⟨S20000x1, .i32⟩
  | .hbm, ⟨45, _⟩ => ⟨S20000x8x16, .f32⟩
  | .hbm, ⟨46, _⟩ => ⟨S_, .f32⟩
  | .hbm, ⟨47, _⟩ => ⟨S20000x8x16, .f32⟩
  | .hbm, ⟨48, _⟩ => ⟨S20000x8x16, .f32⟩
  | .hbm, ⟨49, _⟩ => ⟨S20000x8x16, .f32⟩
  | .hbm, ⟨50, _⟩ => ⟨S_, .f32⟩
  | .hbm, ⟨51, _⟩ => ⟨S20000x16, .f32⟩
  | .hbm, ⟨52, _⟩ => ⟨S20000x1x16, .f32⟩
  | .hbm, ⟨53, _⟩ => ⟨S20000x1x16, .f32⟩
  | .hbm, ⟨54, _⟩ => ⟨S_, .f32⟩
  | .hbm, ⟨55, _⟩ => ⟨S20000x1x16, .f32⟩
  | .hbm, ⟨56, _⟩ => ⟨S20000x1x16, .f32⟩
  | .hbm, ⟨57, _⟩ => ⟨S20000x8x16, .f32⟩
  | .hbm, ⟨58, _⟩ => ⟨S20000x8x16, .f32⟩
  | _, _ => ⟨S100000x8x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  reducesTo_S600000x8x16_S600000x8_d2 : S600000x8x16.ReducesTo [2] S600000x8
  h_S_ : 0 < S_.numel
  reducesTo_S600000x8_S600000_d1 : S600000x8.ReducesTo [1] S600000
  bcast_S600000x1_S600000x8_0_1 : S600000x1.BroadcastsInDim S600000x8 (![0, 1] : Fin 2 → Fin S600000x8.rank)
  bcast_S600000x8_S600000x8x1_0_1 : S600000x8.BroadcastsInDim S600000x8x1 (![0, 1] : Fin 2 → Fin S600000x8x1.rank)
  bcast_S600000x8x1_S600000x8x16_0_1_2 : S600000x8x1.BroadcastsInDim S600000x8x16 (![0, 1, 2] : Fin 3 → Fin S600000x8x16.rank)
  bcast_S_S100000x8x16 : S_.BroadcastsInDim S100000x8x16 (![] : Fin 0 → Fin S100000x8x16.rank)
  bcast_S_S20000 : S_.BroadcastsInDim S20000 (![] : Fin 0 → Fin S20000.rank)
  bcast_S20000_S20000x1_0 : S20000.BroadcastsInDim S20000x1 (![0] : Fin 1 → Fin S20000x1.rank)
  bcast_S_S20000x8x16 : S_.BroadcastsInDim S20000x8x16 (![] : Fin 0 → Fin S20000x8x16.rank)
  reducesTo_S20000x8x16_S20000x16_d1 : S20000x8x16.ReducesTo [1] S20000x16
  bcast_S20000x16_S20000x1x16_0_2 : S20000x16.BroadcastsInDim S20000x1x16 (![0, 2] : Fin 2 → Fin S20000x1x16.rank)
  bcast_S_S20000x1x16 : S_.BroadcastsInDim S20000x1x16 (![] : Fin 0 → Fin S20000x1x16.rank)
  bcast_S20000x1x16_S20000x8x16_0_1_2 : S20000x1x16.BroadcastsInDim S20000x8x16 (![0, 1, 2] : Fin 3 → Fin S20000x8x16.rank)
  gather_S100000x8x16_S600000x1_S600000x8x16_12_0_n_n_0_1_1816_wf : GatherDims.WF S100000x8x16 S600000x1 S600000x8x16 [1, 2] [0] [] [0] [] 1 ![1, 8, 16]
  scatter_S100000x8x16_S600000x1_S600000x8x16_12_0_0_1_wf : ScatterDims.WF S100000x8x16 S600000x1 S600000x8x16 [1, 2] [0] [0] 1
  gather_S100000x8x16_S20000x1_S20000x8x16_12_0_n_n_0_1_1816_wf : GatherDims.WF S100000x8x16 S20000x1 S20000x8x16 [1, 2] [0] [] [0] [] 1 ![1, 8, 16]

variable [Facts₀]

def gather_S100000x8x16_S600000x1_S600000x8x16_12_0_n_n_0_1_1816 : GatherDims S100000x8x16 S600000x1 S600000x8x16 where
  offsetDims := [1, 2]
  collapsedSliceDims := [0]
  operandBatchingDims := []
  startIndicesBatchingDims := []
  startIndexMap := [0]
  indexVectorDim := 1
  sliceSizes := ![1, 8, 16]
  wf := gather_S100000x8x16_S600000x1_S600000x8x16_12_0_n_n_0_1_1816_wf
def scatter_S100000x8x16_S600000x1_S600000x8x16_12_0_0_1 : ScatterDims S100000x8x16 S600000x1 S600000x8x16 where
  updateWindowDims := [1, 2]
  insertedWindowDims := [0]
  scatterDimsToOperandDims := [0]
  indexVectorDim := 1
  wf := scatter_S100000x8x16_S600000x1_S600000x8x16_12_0_0_1_wf
def gather_S100000x8x16_S20000x1_S20000x8x16_12_0_n_n_0_1_1816 : GatherDims S100000x8x16 S20000x1 S20000x8x16 where
  offsetDims := [1, 2]
  collapsedSliceDims := [0]
  operandBatchingDims := []
  startIndicesBatchingDims := []
  startIndexMap := [0]
  indexVectorDim := 1
  sliceSizes := ![1, 8, 16]
  wf := gather_S100000x8x16_S20000x1_S20000x8x16_12_0_n_n_0_1_1816_wf

class Facts : Prop extends Facts₀ where

variable [Facts]
-- ==== Proof.KRun.lean ====
/-
  The kernel program's run with its two RESULT arrays named.

  The program is eight segments: four stretches of host operations, the edge kernel's region, a stretch of host
  operations, the normalisation kernel's region, and a last reshape. The buffer contents at each segment boundary are
  the generated fold `Gen.W0 … Gen.W8` from the launch memory. Every weakly fair execution terminates with every
  unscoped buffer at `Gen.W8`; read at the two result buffers and at the four arguments this is the run below.
-/
import proofs.«166031_j6889127542846_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the two result buffers at the
    last boundary's contents and the four argument arrays as launched. -/
theorem run : θ_run defs (onTc (τ := τ) (main (F := F))) ⟨m, fun _ => 0, ρ⟩ (fun r => ∀ c : Dev nD,
      r.2.mem ((c.tc : Thread nD τ).loc main_v30) = W8 m ρ c (Proc.devRef .tc main_v30)
      ∧ r.2.mem ((c.tc : Thread nD τ).loc main_v14) = W8 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v30 (by decide)), h c _ (mem_uc main_v14 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩)

end Cert.KernelIdeal.KRun

end
-- ==== Proof.HostFns.lean ====
/-
  The host operations around the two kernel regions, as functions of arrays.

  Before the first region the program flattens the node and edge features to rows of 128 = 8 · 16 entries, reads each
  edge's destination row out of the flattened node features, and pads both edge-indexed arrays with 3136 zero rows
  (`eftPad`, `gatPad`). Between the regions it cuts the padding columns off the `[8, 603136]` weights, transposes them to
  `[600000, 8]` (`attT`), appends a unit axis (`att1`: the second result), multiplies the edge features by the weights
  spread over the 16 components, flattens (`msgFlat`), adds the messages' rows into the rows their destination words
  name (`nftFlat`) and reads the target rows out (`gathered`). After the second region the rows are unflattened (`unflat`).
-/
import proofs.«166031_j6889127542846_2_alg».proof.KernelIdeal
import proofs.«166031_j6889127542846_2_alg».proof.Proof.Gen.KernelIdeal
import Idealize.ShloMosaic.PureOps.Ideal

noncomputable section

namespace Cert.KernelIdeal.HostFns

open Cert.KernelIdeal Cert.KernelIdeal.Gen
open Idealize.ShloMosaic

/-- Edge `e` as a row of the padded arrays. -/
def up (e : Fin 600000) : Fin 603136 := ⟨e.val, by have := e.isLt; omega⟩

/-- The row words of the 600000 edges as the gather reads them: a negative word has the node count added. -/
def rowWords2 (x2 : IVec S600000 32) : IVec S600000x1 32 :=
  broadcastInDim S600000x1 ![0] bcast_S600000_S600000x1_0
    (select (cmpi .slt x2 (broadcastInDim S600000 ![] bcast_S_S600000 (constantI S_ 32 0#32)))
      (addi x2 (broadcastInDim S600000 ![] bcast_S_S600000 (constantI S_ 32 100000#32))) x2)

/-- The same for the 20000 target words. -/
def rowWords3 (x3 : IVec S20000 32) : IVec S20000x1 32 :=
  broadcastInDim S20000x1 ![0] bcast_S20000_S20000x1_0
    (select (cmpi .slt x3 (broadcastInDim S20000 ![] bcast_S_S20000 (constantI S_ 32 0#32)))
      (addi x3 (broadcastInDim S20000 ![] bcast_S_S20000 (constantI S_ 32 100000#32))) x3)

/-- The flattened edge features, padded with 3136 zero rows. -/
def eftPad (x1 : FVec Ideal S600000x8x16 .f32) : FVec Ideal S603136x128 .f32 :=
  pad S603136x128 ![0, 0] ![3136, 0] ![0, 0] (shapeCast S600000x128 x1 shapeCasts_S600000x8x16_S600000x128)
    (constant (F := Ideal) S_ .f32 0x00000000#32) pads_S600000x128_S603136x128_031360_000 h_S_

/-- The destination rows of the flattened node features, padded with 3136 zero rows. -/
def gatPad (x0 : FVec Ideal S100000x8x16 .f32) (x2 : IVec S600000 32) : FVec Ideal S603136x128 .f32 :=
  pad S603136x128 ![0, 0] ![3136, 0] ![0, 0]
    (Host.gather gather_S100000x128_S600000x1_S600000x128_1_0_n_n_0_1_1128
      (shapeCast S100000x128 x0 shapeCasts_S100000x8x16_S100000x128) (rowWords2 x2))
    (constant (F := Ideal) S_ .f32 0x00000000#32) pads_S600000x128_S603136x128_031360_000 h_S_

/-- The weights with the padding columns cut off, transposed to one row per edge. -/
def attT (a11 : FVec Ideal S8x603136 .f32) : FVec Ideal S600000x8 .f32 :=
  transpose S600000x8 [1, 0] (extractStridedSlice S8x600000 ![0, 0] a11 slices_S8x603136_S8x600000_0_0)
    transposes_S8x600000_S600000x8_1_0

/-- The same with a unit axis appended: the program's second result. -/
def att1 (a11 : FVec Ideal S8x603136 .f32) : FVec Ideal S600000x8x1 .f32 :=
  broadcastInDim S600000x8x1 ![0, 1] bcast_S600000x8_S600000x8x1_0_1 (attT a11)

/-- The messages, flattened to rows of 128. -/
def msgFlat (a11 : FVec Ideal S8x603136 .f32) (x1 : FVec Ideal S600000x8x16 .f32) : FVec Ideal S600000x128 .f32 :=
  shapeCast S600000x128
    (mulf x1 (broadcastInDim S600000x8x16 ![0, 1, 2] bcast_S600000x8x1_S600000x8x16_0_1_2 (att1 a11)))
    shapeCasts_S600000x8x16_S600000x128

/-- The messages' rows added into the rows their destination words name, from zero. -/
def nftFlat (a11 : FVec Ideal S8x603136 .f32) (x1 : FVec Ideal S600000x8x16 .f32) (x2 : IVec S600000 32) :
    FVec Ideal S100000x128 .f32 :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 x2) (msgFlat a11 x1)

/-- The target rows of the collected features. -/
def gathered (a11 : FVec Ideal S8x603136 .f32) (x1 : FVec Ideal S600000x8x16 .f32) (x2 : IVec S600000 32)
    (x3 : IVec S20000 32) : FVec Ideal S20000x128 .f32 :=
  Host.gather gather_S100000x128_S20000x1_S20000x128_1_0_n_n_0_1_1128 (nftFlat a11 x1 x2) (rowWords3 x3)

/-- Rows of 128 viewed as 8 heads of 16 components. -/
def unflat (a29 : FVec Ideal S20000x128 .f32) : FVec Ideal S20000x8x16 .f32 :=
  shapeCast S20000x8x16 a29 shapeCasts_S20000x128_S20000x8x16

end Cert.KernelIdeal.HostFns

end
-- ==== Proof.Spec.lean ====
/-
  The message-passing layer as one function of its four argument arrays, entry by entry, over the extended reals.

  Arguments: node features `node : [100000, 8, 16]`, edge features `eft : [600000, 8, 16]`, each edge's destination
  node `dst : [600000]` and the target nodes `tgt : [20000]` (both 32-bit words).
    * A row index word is read the way array indexing reads it: a negative word has the node count added once, and
      the result, read signed, is clamped into `[0, 99999]` (`row`).
    * Edge `e`, head `h`: the similarity `sim e h = Σ_d eft(e,h,d) · node(row(dst e),h,d)`; the attention weight
      `att e h` is the softmax of `sim e ·` over the eight heads, computed against the row maximum.
    * Node `n` collects `nft(n,h,d) = Σ_{e : dst e = n} eft(e,h,d) · att e h` — the destination word read signed and NOT
      clamped: an edge whose word names no node contributes nowhere.
    * Target `t`: `x(t,h,d) = nft(row(tgt t),h,d) + c₁`, normalised over the heads:
      `out(t,h,d) = x(t,h,d) / max(√(Σ_h x(t,h,d)²), c₂)`, with `c₁`, `c₂` the two float literals of the source.
-/
import Idealize.ShloMosaic.PureOps.Ideal
import Idealize.ShloMosaic.Lib.ValueIdx

noncomputable section

open scoped BigOperators

namespace Cert.Spec

open Idealize.ShloMosaic Idealize.ShloMosaic.ValueIdx

/-- A row index word as array indexing reads it before the clamp: a negative word has 100000 added. -/
def wrap (w : BitVec 32) : BitVec 32 :=
  Scalar.select (IntOp.cmpi .slt w 0#32) (IntOp.addi w 100000#32) w

/-- The row a word names: wrapped, read signed, clamped into `[0, 99999]`. -/
def row (w : BitVec 32) : Fin 100000 := ⟨min (wrap w).toInt.toNat 99999, by omega⟩

/-- Column `16·h + d` of a row of 128 = 8 · 16 entries: head `h`, component `d`. -/
def col (h : Fin 8) (d : Fin 16) : Fin 128 := ⟨h.val * 16 + d.val, by omega⟩

/-- The largest of eight values (the fold starts at the pattern of -∞). -/
def topOf (s : Fin 8 → EReal) : EReal :=
  (Finset.univ : Finset (Fin 8)).fold max (Ideal.ofBits .f32 0xFF800000#32) s

/-- The softmax of eight values at `h`, computed against their maximum. -/
def softw (s : Fin 8 → EReal) (h : Fin 8) : EReal :=
  Ideal.div (Ideal.exp (s h - topOf s)) (∑ k : Fin 8, Ideal.exp (s k - topOf s))

/-- Eight values divided by their Euclidean norm clamped below by the second literal, at `h`. -/
def normw (x : Fin 8 → EReal) (h : Fin 8) : EReal :=
  Ideal.div (x h) (max (Ideal.sqrt (∑ k : Fin 8, x k * x k)) (Ideal.ofBits .f32 0x2B8CBCCC#32))

variable (node : FVec Ideal ⟨3, ![100000, 8, 16]⟩ .f32) (eft : FVec Ideal ⟨3, ![600000, 8, 16]⟩ .f32)
  (dst : IVec ⟨1, ![600000]⟩ 32) (tgt : IVec ⟨1, ![20000]⟩ 32)

/-- The destination node's feature gathered for edge `e`. -/
def gat (e : Fin 600000) (h : Fin 8) (d : Fin 16) : EReal := node (ix3 (row (dst (ix1 e))) h d)

/-- The similarity of edge `e` at head `h`. -/
def sim (e : Fin 600000) (h : Fin 8) : EReal := ∑ d : Fin 16, eft (ix3 e h d) * gat node dst e h d

/-- The softmax weight of edge `e` at head `h`. -/
def att (e : Fin 600000) (h : Fin 8) : EReal := softw (fun k => sim node eft dst e k) h

/-- The message of edge `e`. -/
def msg (e : Fin 600000) (h : Fin 8) (d : Fin 16) : EReal := eft (ix3 e h d) * att node eft dst e h

/-- What node `n` collects: the messages of the edges whose destination word, read signed, is `n`. -/
def nft (n : Fin 100000) (h : Fin 8) (d : Fin 16) : EReal :=
  ∑ e : Fin 600000, if (dst (ix1 e)).toInt = (n.val : ℤ) then msg node eft dst e h d else 0

/-- The collected feature of target `t`, shifted by the first literal. -/
def xt (t : Fin 20000) (h : Fin 8) (d : Fin 16) : EReal :=
  nft node eft dst (row (tgt (ix1 t))) h d + Ideal.ofBits .f32 0x26901D7D#32

/-- The normalised output. -/
def out (t : Fin 20000) (h : Fin 8) (d : Fin 16) : EReal := normw (fun k => xt node eft dst tgt t k d) h

end Cert.Spec

end
-- ==== Proof.LibSplitLast.lean ====
/-
  Layout operations that split or merge the LAST axis of an array, and that keep a reduced last axis, read at an entry.

  A shape cast keeps the row-major position of every element, so
    * splitting the last axis, `[a, N] → [a, b, c]` with `N = b·c`, reads `(i, j, k)` at row `i`, column `j·c + k`, and
      merging the two last axes, `[a, b, c] → [a, N]`, is its inverse;
    * appending a unit axis, `[a, b] → [a, b, 1]`, reads `(i, j, 0)` at `(i, j)`.
  A broadcast along a trailing unit axis, `[a, b, 1] → [a, b, c]`, repeats the operand: it reads `(i, j, 0)` at `(i, j, k)`.
  The column `j·c + k` is given as any `n : Fin N` with that value, so a caller names it as it likes.
-/
import Idealize.ShloMosaic.Lib.Pipeline.Value
import Idealize.ShloMosaic.Lib.ValueIdx

noncomputable section

namespace Cert.Lib

open Idealize.ShloMosaic Idealize.ShloMosaic.ValueIdx

variable {α : Type}

/-- An `[a, N]` array with `N = b·c` cast to `[a, b, c]` reads, at `(i, j, k)`, the operand at row `i`, column `j·c + k`. -/
theorem shapeCast_aN_abc_apply {a N b c : ℕ} (hN : N = b * c) (x : (⟨2, ![a, N]⟩ : Shape).Idx → α)
    (h : (⟨2, ![a, N]⟩ : Shape).ShapeCasts ⟨3, ![a, b, c]⟩) (i : Fin a) (j : Fin b) (k : Fin c) (n : Fin N)
    (hn : n.val = j.val * c + k.val) :
    shapeCast ⟨3, ![a, b, c]⟩ x h (ix3 i j k) = x (ix2 i n) :=
  shapeCast_apply x h _ _ (by
    rw [Shape.rowMajor_val_three, Shape.rowMajor_val_two]
    show i.val * N + n.val = (i.val * b + j.val) * c + k.val
    rw [hn, hN, Nat.add_mul, Nat.mul_assoc, Nat.add_assoc])

/-- An `[a, b, c]` array cast to `[a, N]` with `N = b·c` reads, at row `i`, column `j·c + k`, the operand at `(i, j, k)`. -/
theorem shapeCast_abc_aN_apply {a N b c : ℕ} (hN : N = b * c) (x : (⟨3, ![a, b, c]⟩ : Shape).Idx → α)
    (h : (⟨3, ![a, b, c]⟩ : Shape).ShapeCasts ⟨2, ![a, N]⟩) (i : Fin a) (j : Fin b) (k : Fin c) (n : Fin N)
    (hn : n.val = j.val * c + k.val) :
    shapeCast ⟨2, ![a, N]⟩ x h (ix2 i n) = x (ix3 i j k) :=
  shapeCast_apply x h _ _ (by
    rw [Shape.rowMajor_val_three, Shape.rowMajor_val_two]
    show (i.val * b + j.val) * c + k.val = i.val * N + n.val
    rw [hn, hN, Nat.add_mul, Nat.mul_assoc, Nat.add_assoc])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show 0 = if (1 : ℕ) = 1 then 0 else k.val
    rw [if_pos rfl]

end Cert.Lib

end
-- ==== Proof.LibColumn.lean ====
/-
  A column kept from a vector, and a column spread along rows, read at an entry.

  Summing a matrix along its rows while keeping the axis (`keepdims`) leaves an `[a]` vector viewed as an `[a, 1]`
  column; dividing the matrix by it spreads the column back to `[a, b]`. Read at an entry:
  * the `[a]` vector cast to `[a, 1]` has, at `(i, u)`, the vector's entry `i`, whatever the unit coordinate `u`;
  * the `[a, 1]` column broadcast to `[a, b]` has, at `(p, c)`, the column's entry `(p, 0)`.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibRowReduce.lean ====
/-
  Reductions along the rows of a matrix, read at one row, over the extended reals.

  For an `[a, n]` matrix `Y` reduced over its second axis to an `[a]` vector, entry `p` of the result depends on row
  `p` only:
  * a vector maximum reduction from the accumulator pattern `acc` is the fold of `max` from `acc`'s value over
    `Y (p, 0), …, Y (p, n − 1)`;
  * a vector sum reduction from the zero accumulator is `Σ_j Y (p, j)`;
  * the host's reduce with a maximum body from the initial value `init` is the same fold from `init`.
  The point put back into the reduced index `p` at coordinate `k` of the reduced axis is `(p, k)`.
-/
import Idealize.ShloMosaic.PureOps.Ideal.Laws
import Idealize.ShloMosaic.Lib.ValueIdx

noncomputable section

open scoped BigOperators

namespace Cert.Lib

open Idealize.ShloMosaic Idealize.ShloMosaic.ValueIdx

/-- The reduced index `p` with coordinate `k` of the second axis put back is `(p, k)`. -/
theorem lift_row {a n : ℕ} (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- A vector maximum reduction along the rows, at row `p`: the fold of `max` from the accumulator's value over the row. -/
theorem laneMax_apply {a n : ℕ} (Y : FVec Ideal ⟨2, ![a, n]⟩ .f32) (acc : BitVec 32)
    (h : (⟨2, ![a, n]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) Y acc h hφ hacc (ix1 p)
      = (Finset.univ : Finset (Fin n)).fold max (Ideal.ofBits .f32 acc) (fun j => Y (ix2 p j)) := by
  rw [Ideal.multiReduction_maximumf_single]
  have hf : (Y ∘ h.lift (ix1 p)) = fun k : Fin n => Y (ix2 p k) := funext fun k => congrArg Y (lift_row h p k)
  exact congrArg (fun f => Finset.fold max (Ideal.ofBits .f32 acc) f (Finset.univ : Finset (Fin n))) hf

/-- A vector sum reduction along the rows, at row `p`: the sum of the row. -/
theorem laneSum_apply {a n : ℕ} (Y : FVec Ideal ⟨2, ![a, n]⟩ .f32) (acc : BitVec 32)
    (h : (⟨2, ![a, n]⟩ : Shape).Reduces [1] (⟨1, ![a]⟩ : Shape)) (hφ : FKind.Formats .f32)
    (hacc : acc = FKind.add.neutral .f32 hφ) (p : Fin a) :
    multiReduction .add [1] (⟨1, ![a]⟩ : Shape) Y acc h hφ hacc (ix1 p) = ∑ j : Fin n, Y (ix2 p j) := by
  rw [Ideal.multiReduction_add_single]
  exact Finset.sum_congr rfl fun k _ => congrArg Y (lift_row h p k)

/-- The host's reduce with a maximum body along the rows, at row `p`: the fold of `max` from the initial value over the row. -/
theorem hostMax_apply {a n : ℕ} (Y : FVec Ideal ⟨2, ![a, n]⟩ .f32) (init : (⟨0, ![]⟩ : Shape).Idx → Ideal .f32)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf Y init h' hu (ix1 p)
      = (Finset.univ : Finset (Fin n)).fold max (init (Shape.Idx.first hu)) (fun j => Y (ix2 p j)) := by
  rw [Host.reduce_eq_fold_single FloatOps.maximumf Y _ h' h hu]
  have hf : (Y ∘ h.lift (ix1 p)) = fun k : Fin n => Y (ix2 p k) := funext fun k => congrArg Y (lift_row h p k)
  exact congrArg (fun f => Finset.fold max (init (Shape.Idx.first hu)) f (Finset.univ : Finset (Fin n))) hf

end Cert.Lib

end
-- ==== Proof.EdgeBody.lean ====
/-
  The edge kernel's stored block, read at one entry, over the extended reals.

  The kernel body takes two `[4864, 128]` blocks `x0`, `x1` (one row per edge, the 128 columns being 8 heads of 16
  components, column `16·k + d` for head `k`, component `d`) and stores an `[8, 4864]` block. Row by row it forms
    * the products `x0(r, c) · x1(r, c)`, viewed `[4864, 8, 16]`, and their sums over the 16 components: the similarity
      `s_r(k) = Σ_d x0(r, 16k + d) · x1(r, 16k + d)`;
    * the largest of the eight similarities of the row (the fold starts from the pattern of -∞), spread back over the heads;
    * the exponentials `exp(s_r(k) − max_r)`, their sum over the heads spread back, and the quotient: the softmax of the row;
    * the transpose, so that entry `(h, r)` of the stored block is the softmax weight of row `r` at head `h`.
  Each step is read at one entry: the elementwise operations by definition, the views and the spreads by the position they
  keep, the reductions as a finite sum or a finite fold of `max` over the reduced coordinate.
-/
import proofs.«166031_j6889127542846_2_alg».proof.Proof.Gen.KernelIdeal.Skeleton
import proofs.«166031_j6889127542846_2_alg».proof.Proof.Spec
import proofs.«166031_j6889127542846_2_alg».proof.Proof.LibSplitLast
import proofs.«166031_j6889127542846_2_alg».proof.Proof.LibColumn
import proofs.«166031_j6889127542846_2_alg».proof.Proof.LibRowReduce
import Idealize.ShloMosaic.Lib.ValueLayout
import Idealize.ShloMosaic.Lib.ValueIdx

noncomputable section

open scoped BigOperators

open Idealize.ShloMosaic Idealize.ShloMosaic.ValueIdx

namespace Cert.KernelIdeal.Body

open Cert.KernelIdeal Cert.KernelIdeal.Gen Cert.Spec

/-- The reduced index `(r, k)` of an `[a, b, c]` array summed over its last axis, with coordinate `d` of that axis put
    back, is `(r, k, d)`. -/
theorem lift_last {a b c : ℕ} (h : (⟨3, ![a, b, c]⟩ : Shape).Reduces [2] (⟨2, ![a, b]⟩ : Shape)) (r : Fin a) (k : Fin b)
    (d : Fin ((⟨3, ![a, b, c]⟩ : Shape).size 2)) : h.lift (ix2 r k) d = ix3 r k (⟨d.val, d.isLt⟩ : Fin c) := by
  funext x; apply Fin.ext
  fin_cases x <;> rfl

/-- A vector sum reduction over the last axis of an `[a, b, c]` array, at `(r, k)`: `Σ_d Y(r, k, d)`. -/
theorem sumLast_apply {a b c : ℕ} (Y : FVec Ideal ⟨3, ![a, b, c]⟩ .f32) (acc : BitVec 32)
    (h : (⟨3, ![a, b, c]⟩ : Shape).Reduces [2] (⟨2, ![a, b]⟩ : Shape)) (hφ : FKind.Formats .f32)
    (hacc : acc = FKind.add.neutral .f32 hφ) (r : Fin a) (k : Fin b) :
    multiReduction .add [2] (⟨2, ![a, b]⟩ : Shape) Y acc h hφ hacc (ix2 r k) = ∑ d : Fin c, Y (ix3 r k d) := by
  rw [Ideal.multiReduction_add_single]
  exact Finset.sum_congr rfl fun d _ => congrArg Y (lift_last h r k d)

variable [Cert.KernelIdeal.Facts]

/-- The similarities: the two blocks multiplied entry by entry, viewed `[4864, 8, 16]` and summed over the components,
    at row `r`, head `k`: `Σ_d x0(r, 16k + d) · x1(r, 16k + d)`. -/
theorem sim_apply (x0 x1 : Vec Ideal S4864x128 .f32) (hφ : FKind.Formats .f32)
    (hacc : (0x00000000#32 : BitVec 32) = FKind.add.neutral .f32 hφ) (r : Fin 4864) (k : Fin 8) :
    multiReduction (F := Ideal) .add [2] S4864x8
        (shapeCast S4864x8x16
          (mulf (F := Ideal) (φ := .f32) (shapeCast S4864x128 x0 shapeCasts_S4864x128_S4864x128)
            (shapeCast S4864x128 x1 shapeCasts_S4864x128_S4864x128))
          shapeCasts_S4864x128_S4864x8x16)
        0x00000000#32 reduces_S4864x8x16_S4864x8 hφ hacc (ix2 r k)
      = ∑ d : Fin 16, x0 (ix2 r (col k d)) * x1 (ix2 r (col k d)) := by
  refine (sumLast_apply _ _ _ hφ hacc r k).trans ?_
  refine Finset.sum_congr rfl fun d _ => ?_
  refine (Cert.Lib.shapeCast_aN_abc_apply (by norm_num) _ _ r k d (col k d) rfl).trans ?_
  exact congrArg₂ (· * ·) (congrFun (shapeCast_self x0 _) _) (congrFun (shapeCast_self x1 _) _)

/-- A `[4864]` vector kept as a column and spread along the eight heads reads, at `(r, k)`, its entry `r`. -/
theorem spread_apply (v : FVec Ideal S4864 .f32) (r : Fin 4864) (k : Fin 8) :
    broadcastTo S4864x8 (shapeCast S4864x1 v shapeCasts_S4864_S4864x1) broadcasts_S4864x1_S4864x8 (ix2 r k) = v (ix1 r) :=
  (Cert.Lib.broadcastTo_a1_ab_apply _ _ r k).trans (Cert.Lib.shapeCast_a_a1_apply v _ r 0)

/-- The exponentials: `exp(Y(r, k) − max_j Y(r, j))`, the maximum being the fold from the pattern of -∞. -/
theorem shifted_apply (Y : FVec Ideal S4864x8 .f32) (hφ : FKind.Formats .f32)
    (hacc : (0xFF800000#32 : BitVec 32) = FKind.maximumf.neutral .f32 hφ) (r : Fin 4864) (k : Fin 8) :
    exp (subf Y (broadcastTo S4864x8
        (shapeCast S4864x1 (multiReduction .maximumf [1] S4864 Y 0xFF800000#32 reduces_S4864x8_S4864 hφ hacc) shapeCasts_S4864_S4864x1)
        broadcasts_S4864x1_S4864x8)) (ix2 r k)
      = Ideal.exp (Y (ix2 r k) - topOf (fun j => Y (ix2 r j))) :=
  congrArg (fun t => Ideal.exp (Y (ix2 r k) - t))
    ((spread_apply _ r k).trans (Cert.Lib.laneMax_apply Y _ _ hφ hacc r))

/-- A matrix divided by its row sums spread back over the heads, at `(r, h)`: `E(r, h) / Σ_k E(r, k)`. -/
theorem ratio_apply (E : FVec Ideal S4864x8 .f32) (hφ : FKind.Formats .f32)
    (hacc : (0x00000000#32 : BitVec 32) = FKind.add.neutral .f32 hφ) (r : Fin 4864) (h : Fin 8) :
    divf E (broadcastTo S4864x8
        (shapeCast S4864x1 (multiReduction .add [1] S4864 E 0x00000000#32 reduces_S4864x8_S4864 hφ hacc) shapeCasts_S4864_S4864x1)
        broadcasts_S4864x1_S4864x8) (ix2 r h)
      = Ideal.div (E (ix2 r h)) (∑ k : Fin 8, E (ix2 r k)) :=
  congrArg (Ideal.div (E (ix2 r h))) ((spread_apply _ r h).trans (Cert.Lib.laneSum_apply E _ _ hφ hacc r))

/-- The edge kernel's stored block at `(h, r)`: the softmax weight at head `h` of the eight similarities
    `Σ_d x0(r, 16k + d) · x1(r, 16k + d)` of row `r`, computed against their maximum. -/
theorem edge_apply (x0 x1 : Vec Ideal S4864x128 .f32) (h : Fin 8) (r : Fin 4864) :
    k0_pay1 (F := Ideal) x0 x1 (ix2 h r)
      = softw (fun k => ∑ d : Fin 16, x0 (ix2 r (col k d)) * x1 (ix2 r (col k d))) h := by
  unfold k0_pay1
  refine (transpose_ix2_apply _ _ h r).trans ?_
  refine (ratio_apply _ _ _ r h).trans ?_
  refine (congrArg₂ Ideal.div (shifted_apply _ _ _ r h)
    (Finset.sum_congr rfl fun k _ => shifted_apply _ _ _ r k)).trans ?_
  exact congrArg (fun s => softw s h) (funext fun k => sim_apply x0 x1 _ _ r k)

end Cert.KernelIdeal.Body

end
-- ==== Proof.EdgeArray.lean ====
/-
  The edge kernel's output array, whole.

  The region runs the body at 124 grid points. At point `t` the two input windows stage rows `4864·t … 4864·t + 4863`
  of the two padded `[603136, 128]` arrays, and the output window writes back columns `4864·t … 4864·t + 4863` of the
  `[8, 603136]` result. The 124 column blocks tile the result, and entry `(h, e)` of what point `e / 4864` writes is
  the softmax weight at head `h` of row `e` of the two arrays: the result array is one function of them.
-/
import proofs.«166031_j6889127542846_2_alg».proof.Proof.Gen.KernelIdeal.Frame
import proofs.«166031_j6889127542846_2_alg».proof.Proof.Spec
import proofs.«166031_j6889127542846_2_alg».proof.Proof.EdgeBody

import Idealize.ShloMosaic.Lib.Pipeline.Value
import Idealize.ShloMosaic.Lib.ValueIdx

set_option maxRecDepth 16384

noncomputable section

open scoped BigOperators

namespace Cert.KernelIdeal.EdgeArray

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The softmax weights of the rows of two `[603136, 128]` arrays, laid out `[8, 603136]`: entry `(h, e)` is the weight
    at head `h` of the eight per-head dot products of row `e`. -/
def weights (a0 a1 : S603136x128.Idx → EReal) : S8x603136.Idx → EReal := fun i =>
  softw (fun k => ∑ d : Fin 16, a0 (ix2 (i 1) (col k d)) * a1 (ix2 (i 1) (col k d))) (i 0)

theorem hz : (![0, 0] : Fin 2 → Nat) = fun _ => 0 := funext fun a => by fin_cases a <;> rfl

/-- The index maps over the grid: the input blocks move down the rows, the output block along the columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- Row `4864·t + r` of the padded arrays: row `r` of the block at point `t`. -/
def rowOf (t : Fin cfg0.N) (r : Fin 4864) : Fin 603136 :=
  ⟨t.val * 4864 + r.val, by
    have ht : t.val < grid0.N := t.isLt
    rw [N_0] at ht
    have := r.isLt; omega⟩

/-- Entry `(r, q)` of the first input block at point `t` is entry `(4864·t + r, q)` of its array. -/
theorem blk_in0 (c : Dev nD) (t : Fin cfg0.N) (r : Fin 4864) (q : Fin 128) :
    iblk0 V c 0 t (ix2 r q) = V c main_v9 (ix2 (rowOf t r) q) := by
  obtain ⟨e0, e1, -⟩ := idx_facts t
  unfold iblk0
  rw [View.read_apply]
  show V c main_v9 (((cfg0.win 0).blk t).view.emb (ix2 r q)) = V c main_v9 (ix2 (rowOf t r) q)
  refine congrArg (V c main_v9) (funext fun a => Fin.ext ?_)
  match a with
  | ⟨0, _⟩ => show win0_0.index t (0 : Fin 2) * 4864 + 1 * r.val = t.val * 4864 + r.val; omega
  | ⟨1, _⟩ => show win0_0.index t (1 : Fin 2) * 128 + 1 * q.val = q.val; omega

/-- The same for the second input block. -/
theorem blk_in1 (c : Dev nD) (t : Fin cfg0.N) (r : Fin 4864) (q : Fin 128) :
    iblk0 V c 1 t (ix2 r q) = V c main_v10 (ix2 (rowOf t r) q) := by
  obtain ⟨-, -, e2, e3, -⟩ := idx_facts t
  unfold iblk0
  rw [View.read_apply]
  show V c main_v10 (((cfg0.win 1).blk t).view.emb (ix2 r q)) = V c main_v10 (ix2 (rowOf t r) q)
  refine congrArg (V c main_v10) (funext fun a => Fin.ext ?_)
  match a with
  | ⟨0, _⟩ => show win0_1.index t (0 : Fin 2) * 4864 + 1 * r.val = t.val * 4864 + r.val; omega
  | ⟨1, _⟩ => show win0_1.index t (1 : Fin 2) * 128 + 1 * q.val = q.val; omega

/-- Entry `(h, r)` of the output block at point `t` sits at `(h, 4864·t + r)` of the result array. -/
theorem blk_out (t : Fin cfg0.N) (h : Fin 8) (r : Fin 4864) :
    ((cfg0.win 2).blk t).view.emb (ix2 h r) = (ix2 h (rowOf t r) : S8x603136.Idx) := by
  obtain ⟨-, -, -, -, e4, e5⟩ := idx_facts t
  refine funext fun a => Fin.ext ?_
  match a with
  | ⟨0, _⟩ => show win0_2.index t (0 : Fin 2) * 8 + 1 * h.val = h.val; omega
  | ⟨1, _⟩ => show win0_2.index t (1 : Fin 2) * 4864 + 1 * r.val = t.val * 4864 + r.val; omega

/-- What point `t` writes back is block `t` of the weights of the two input arrays as the region finds them. -/
theorem flushed_eq (c : Dev nD) (t : Fin cfg0.N) :
    (dat0 V c).flushed 2 t = ((cfg0.win 2).blk t).view.read (Elt Ideal) (weights (V c main_v9) (V c main_v10)) := by
  show (cfg0.win 2).cut (grid0.coords t) ((dat0 V c).after 2 t) = _
  rw [after0_2]
  unfold out0_2
  rw [View.canon_unit_zero hz]
  simp only [View.ld_unit_zero (S := S4864x128) hz]
  refine funext fun (j : S8x4864.Idx) => ?_
  obtain ⟨h, r, rfl⟩ : ∃ (h : Fin 8) (r : Fin 4864), j = ix2 h r := ⟨j 0, j 1, eq_ix2 j⟩
  refine (Body.edge_apply _ _ h r).trans ?_
  rw [View.read_apply]
  refine Eq.trans ?_ (congrArg (weights (V c main_v9) (V c main_v10)) (blk_out t h r)).symm
  simp only [blk_in0, blk_in1]
  rfl

/-- An index of the result array is in point `t`'s block iff its column is in the block's range. -/
theorem mem_blk (t : Fin cfg0.N) (i : S8x603136.Idx) :
    i ∈ ((cfg0.win 2).blk t).view.set ↔ ∀ a : Fin 2, win0_2.index t a * S8x4864.size a ≤ (i a).val ∧ (i a).val < win0_2.index t a * S8x4864.size a + S8x4864.size a := by
  show i ∈ ((View.whole main_v11).slice (win0_2.rect t)).set ↔ _
  rw [View.set_slice_whole, Rect.mem_set_unit]
  exact Iff.rfl

/-- Every entry of the result array is in the block of the point its column falls in. -/
theorem cover (i : S8x603136.Idx) : ∃ t : Fin cfg0.N, (cfg0.win 2).flush t = true ∧ i ∈ ((cfg0.win 2).blk t).view.set := by
  have h0 : (i 0).val < 8 := (i 0).isLt
  have h1 : (i 1).val < 603136 := (i 1).isLt
  have hN : grid0.N = 124 := N_0
  let t : Fin cfg0.N := ⟨(i 1).val / 4864, by show (i 1).val / 4864 < grid0.N; omega⟩
  obtain ⟨-, -, -, -, e4, e5⟩ := idx_facts t
  refine ⟨t, flush0_2 t, ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ =>
    show win0_2.index t (1 : Fin 2) * 4864 ≤ (i 1).val ∧ (i 1).val < win0_2.index t (1 : Fin 2) * 4864 + 4864
    have ht : t.val = (i 1).val / 4864 := rfl
    omega

/-- The result array after the region: the weights of the two input arrays as the region finds them. -/
theorem final (c : Dev nD) : (dat0 V c).arrAt 2 cfg0.N = weights (V c main_v9) (V c main_v10) :=
  (dat0 V c).arrAt_eq_of_cover 2 (weights (V c main_v9) (V c main_v10)) (fun t _ => flushed_eq V c t) cover

end Cert.KernelIdeal.EdgeArray

end
-- ==== Proof.LibRank3Layout.lean ====
/-
  Layout operations on arrays of rank two and three, read at an entry given by its coordinates.

  A shape cast keeps the row-major position of every element, so
    * inserting a unit axis in the middle, `[a, b] → [a, 1, b]`, reads `(i, 0, j)` at `(i, j)`;
    * splitting the leading axis, `[a·b, c] → [a, b, c]`, reads `(i, j, k)` at row `i·b + j`, column `k`, and merging the
      two leading axes, `[a, b, c] → [a·b, c]`, is its inverse.
  A broadcast along unit axes repeats the operand: `[a, 1, c]`, `[1, b, c]` and `[1, 1, c]` broadcast to `[a, b, c]` read
  the operand at coordinate `0` on each unit axis.
-/
import Idealize.ShloMosaic.Lib.Pipeline.Value
import Idealize.ShloMosaic.Lib.ValueIdx

noncomputable section

namespace Cert.Lib

open Idealize.ShloMosaic Idealize.ShloMosaic.ValueIdx

variable {α : Type}

/-- Row `i·b + j` of an array whose `n = a·b` rows are `a` groups of `b`. -/
abbrev mergeIdx {n a b : ℕ} (hn : a * b = n) (i : Fin a) (j : Fin b) : Fin n :=
  ⟨i.val * b + j.val, by
    have hi := i.isLt
    have hj := j.isLt
    have h1 : (i.val + 1) * b ≤ a * b := Nat.mul_le_mul_right b hi
    rw [Nat.add_mul, Nat.one_mul] at h1
    omega⟩

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[n, c]` array with `n = a·b` cast to `[a, b, c]` reads, at `(i, j, k)`, the operand at row `i·b + j`, column `k`. -/
theorem shapeCast_nc_abc_apply {n a b c : ℕ} (hn : a * b = n) (x : (⟨2, ![n, c]⟩ : Shape).Idx → α)
    (h : (⟨2, ![n, c]⟩ : Shape).ShapeCasts ⟨3, ![a, b, c]⟩) (i : Fin a) (j : Fin b) (k : Fin c) :
    shapeCast ⟨3, ![a, b, c]⟩ x h (ix3 i j k) = x (ix2 (mergeIdx hn i j) k) :=
  shapeCast_apply x h _ _ (by
    rw [Shape.rowMajor_val_three, Shape.rowMajor_val_two]
    rfl)

/-- An `[a, b, c]` array cast to `[n, c]` with `n = a·b` reads, at row `i·b + j`, column `k`, the operand at `(i, j, k)`. -/
theorem shapeCast_abc_nc_apply {n a b c : ℕ} (hn : a * b = n) (x : (⟨3, ![a, b, c]⟩ : Shape).Idx → α)
    (h : (⟨3, ![a, b, c]⟩ : Shape).ShapeCasts ⟨2, ![n, c]⟩) (i : Fin a) (j : Fin b) (k : Fin c) :
    shapeCast ⟨2, ![n, c]⟩ x h (ix2 (mergeIdx hn i j) k) = x (ix3 i j k) :=
  shapeCast_apply x h _ _ (by
    rw [Shape.rowMajor_val_three, Shape.rowMajor_val_two]
    rfl)

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ =>
    show 0 = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ =>
    show 0 = if (1 : ℕ) = 1 then 0 else i.val
    rw [if_pos rfl]
  | ⟨1, _⟩ =>
    show 0 = if (1 : ℕ) = 1 then 0 else j.val
    rw [if_pos rfl]
  | ⟨2, _⟩ =>
    show k.val = if c = 1 then 0 else k.val
    split
    · have := k.isLt; omega
    · rfl

end Cert.Lib

end
-- ==== Proof.NormBody.lean ====
/-
  The normalisation kernel's stored block, read at one entry, over the extended reals.

  The kernel body takes a `[4000, 128]` block `x0` (one row per target node, the 128 columns being 8 heads of 16
  components, column `16·k + d` for head `k`, component `d`) and stores a block of the same shape. It forms
    * `x(r, k, d) = x0(r, 16k + d) + c₁`, the block shifted by the first literal and viewed `[4000, 8, 16]`;
    * the squares `x(r, k, d)²` summed over the heads, an array `[4000, 16]` kept as `[4000, 1, 16]`, its square root and
      the larger of that root and the second literal `c₂`: the clamped Euclidean norm over the heads;
    * `x` divided by that norm spread back over the heads, viewed `[4000, 128]` again.
  So entry `(r, 16h + d)` of the stored block is `x(r, h, d) / max(√(Σ_k x(r, k, d)²), c₂)`. Each step is read at one
  entry: the elementwise operations by definition, the views and the spread by the position they keep, the reduction as a
  finite sum over the reduced coordinate.
-/
import proofs.«166031_j6889127542846_2_alg».proof.Proof.Gen.KernelIdeal.Skeleton
import proofs.«166031_j6889127542846_2_alg».proof.Proof.Spec
import proofs.«166031_j6889127542846_2_alg».proof.Proof.LibSplitLast
import proofs.«166031_j6889127542846_2_alg».proof.Proof.LibRank3Layout
import Idealize.ShloMosaic.PureOps.Ideal.Laws
import Idealize.ShloMosaic.Lib.ValueLayout
import Idealize.ShloMosaic.Lib.ValueIdx

noncomputable section

open scoped BigOperators

open Idealize.ShloMosaic Idealize.ShloMosaic.ValueIdx

namespace Cert.KernelIdeal.Body

open Cert.KernelIdeal Cert.KernelIdeal.Gen Cert.Spec

/-- The reduced index `(r, d)` of an `[a, b, c]` array summed over its middle axis, with coordinate `k` of that axis put
    back, is `(r, k, d)`. -/
theorem lift_mid {a b c : ℕ} (h : (⟨3, ![a, b, c]⟩ : Shape).Reduces [1] (⟨2, ![a, c]⟩ : Shape)) (r : Fin a) (d : Fin c)
    (k : Fin ((⟨3, ![a, b, c]⟩ : Shape).size 1)) : h.lift (ix2 r d) k = ix3 r (⟨k.val, k.isLt⟩ : Fin b) d := by
  funext x; apply Fin.ext
  fin_cases x <;> rfl

/-- A vector sum reduction over the middle axis of an `[a, b, c]` array, at `(r, d)`: `Σ_k Y(r, k, d)`. -/
theorem sumMid_apply {a b c : ℕ} (Y : FVec Ideal ⟨3, ![a, b, c]⟩ .f32) (acc : BitVec 32)
    (h : (⟨3, ![a, b, c]⟩ : Shape).Reduces [1] (⟨2, ![a, c]⟩ : Shape)) (hφ : FKind.Formats .f32)
    (hacc : acc = FKind.add.neutral .f32 hφ) (r : Fin a) (d : Fin c) :
    multiReduction .add [1] (⟨2, ![a, c]⟩ : Shape) Y acc h hφ hacc (ix2 r d) = ∑ k : Fin b, Y (ix3 r k d) := by
  rw [Ideal.multiReduction_add_single]
  exact Finset.sum_congr rfl fun k _ => congrArg Y (lift_mid h r d k)

variable [Cert.KernelIdeal.Facts]

/-- The shifted block viewed `[4000, 8, 16]`, at `(r, k, d)`: `x0(r, 16k + d) + c`. -/
theorem shift_apply (x0 : Vec Ideal S4000x128 .f32) (c : Ideal .f32) (r : Fin 4000) (k : Fin 8) (d : Fin 16) :
    shapeCast S4000x8x16
        (addf (F := Ideal) (φ := .f32) (shapeCast S4000x128 x0 shapeCasts_S4000x128_S4000x128) (broadcast S4000x128 c))
        shapeCasts_S4000x128_S4000x8x16 (ix3 r k d)
      = x0 (ix2 r (col k d)) + c := by
  refine (Cert.Lib.shapeCast_aN_abc_apply (by norm_num) _ _ r k d (col k d) rfl).trans ?_
  exact congrArg (· + c) (congrFun (shapeCast_self x0 _) _)

/-- The clamped norm over the heads spread back over them, at `(r, h, d)`: `max(√(Σ_k X(r, k, d)²), c)`. -/
theorem norm_den_apply (X : FVec Ideal S4000x8x16 .f32) (c : Ideal .f32) (hφ : FKind.Formats .f32)
    (hacc : (0x00000000#32 : BitVec 32) = FKind.add.neutral .f32 hφ) (r : Fin 4000) (h : Fin 8) (d : Fin 16) :
    broadcastTo S4000x8x16
        (maximumf
          (sqrt (shapeCast S4000x1x16 (multiReduction .add [1] S4000x16 (mulf X X) 0x00000000#32 reduces_S4000x8x16_S4000x16 hφ hacc)
            shapeCasts_S4000x16_S4000x1x16))
          (broadcast S4000x1x16 c))
        broadcasts_S4000x1x16_S4000x8x16 (ix3 r h d)
      = max (Ideal.sqrt (∑ k : Fin 8, X (ix3 r k d) * X (ix3 r k d))) c := by
  refine (Cert.Lib.broadcastTo_a1c_abc_apply _ _ r h d).trans ?_
  refine congrArg (fun t => max (Ideal.sqrt t) c) ?_
  refine (Cert.Lib.shapeCast_ab_a1b_apply _ _ r 0 d).trans ?_
  exact sumMid_apply _ _ _ hφ hacc r d

/-- The normalisation kernel's stored block at row `r`, column `16h + d`: the shifted entry `x0(r, 16h + d) + c₁` divided
    by the Euclidean norm over the eight heads of the shifted entries of component `d`, clamped below by `c₂`. -/
theorem norm_apply (x0 : Vec Ideal S4000x128 .f32) (r : Fin 4000) (h : Fin 8) (d : Fin 16) :
    k1_pay1 (F := Ideal) x0 (ix2 r (col h d))
      = normw (fun k => x0 (ix2 r (col k d)) + Ideal.ofBits .f32 0x26901D7D#32) h := by
  unfold k1_pay1
  refine (Cert.Lib.shapeCast_abc_aN_apply (by norm_num) _ _ r h d (col h d) rfl).trans ?_
  refine (congrArg₂ Ideal.div (shift_apply x0 _ r h d) (norm_den_apply _ _ _ _ r h d)).trans ?_
  exact congrArg (fun t => Ideal.div (x0 (ix2 r (col h d)) + Ideal.ofBits .f32 0x26901D7D#32)
      (max (Ideal.sqrt t) (Ideal.ofBits .f32 0x2B8CBCCC#32)))
    (Finset.sum_congr rfl fun k _ => congrArg₂ (· * ·) (shift_apply x0 _ r k d) (shift_apply x0 _ r k d))

end Cert.KernelIdeal.Body

end
-- ==== Proof.NormArray.lean ====
/-
  The normalisation kernel's output array, whole.

  The region runs the body at 5 grid points. At point `t` the input window stages rows `4000·t … 4000·t + 3999` of the
  `[20000, 128]` input array, and the output window writes back the same rows of the `[20000, 128]` result. The five
  row blocks tile the result, and entry `(r, 16h + d)` of what point `r / 4000` writes is row `r` of the input shifted
  by the first literal and divided, at head `h`, by the clamped Euclidean norm over the eight heads of component `d`:
  the result array is one function of the input array.
-/
import proofs.«166031_j6889127542846_2_alg».proof.Proof.Gen.KernelIdeal.Frame
import proofs.«166031_j6889127542846_2_alg».proof.Proof.Spec
import proofs.«166031_j6889127542846_2_alg».proof.Proof.NormBody
import Idealize.ShloMosaic.Lib.Pipeline.Value
import Idealize.ShloMosaic.Lib.ValueIdx

set_option maxRecDepth 16384

noncomputable section

open scoped BigOperators

namespace Cert.KernelIdeal.NormArray

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The head of column `q = 16·h + d`. -/
def headOf (q : Fin 128) : Fin 8 := ⟨q.val / 16, by have := q.isLt; omega⟩
/-- The component of column `q = 16·h + d`. -/
def compOf (q : Fin 128) : Fin 16 := ⟨q.val % 16, by have := q.isLt; omega⟩

/-- Every row of a `[20000, 128]` array shifted by the first literal and normalised over the heads, component by component. -/
def normed (a : S20000x128.Idx → EReal) : S20000x128.Idx → EReal := fun i =>
  normw (fun k => a (ix2 (i 0) (col k (compOf (i 1)))) + Ideal.ofBits .f32 0x26901D7D#32) (headOf (i 1))

/-- The head of column `16·h + d` is `h`. -/
theorem headOf_col (h : Fin 8) (d : Fin 16) : headOf (col h d) = h :=
  Fin.ext (by show (h.val * 16 + d.val) / 16 = h.val; have := d.isLt; omega)

/-- The component of column `16·h + d` is `d`. -/
theorem compOf_col (h : Fin 8) (d : Fin 16) : compOf (col h d) = d :=
  Fin.ext (by show (h.val * 16 + d.val) % 16 = d.val; have := d.isLt; omega)

/-- Every column is the column of its head and component. -/
theorem col_head_comp (q : Fin 128) : col (headOf q) (compOf q) = q :=
  Fin.ext (by show q.val / 16 * 16 + q.val % 16 = q.val; omega)

/-- The normalised array at row `t`, column `16·h + d`. -/
theorem normed_apply (a : S20000x128.Idx → EReal) (t : Fin 20000) (h : Fin 8) (d : Fin 16) :
    normed a (ix2 t (col h d)) = normw (fun k => a (ix2 t (col k d)) + Ideal.ofBits .f32 0x26901D7D#32) h := by
  unfold normed
  show normw (fun k => a (ix2 t (col k (compOf (col h d)))) + Ideal.ofBits .f32 0x26901D7D#32) (headOf (col h d)) = _
  rw [headOf_col, compOf_col]

theorem hz : (![0, 0] : Fin 2 → Nat) = fun _ => 0 := funext fun a => by fin_cases a <;> rfl

/-- The index maps over the grid: both blocks move down the rows. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Row `4000·t + r` of the arrays: row `r` of the block at point `t`. -/
def rowOf (t : Fin cfg1.N) (r : Fin 4000) : Fin 20000 :=
  ⟨t.val * 4000 + r.val, by
    have ht : t.val < grid1.N := t.isLt
    rw [N_1] at ht
    have := r.isLt; omega⟩

/-- Entry `(r, q)` of the input block at point `t` is entry `(4000·t + r, q)` of its array. -/
theorem blk_in (c : Dev nD) (t : Fin cfg1.N) (r : Fin 4000) (q : Fin 128) :
    iblk1 V c 0 t (ix2 r q) = V c main_v28 (ix2 (rowOf t r) q) := by
  obtain ⟨e0, e1, -⟩ := idx_facts t
  unfold iblk1
  rw [View.read_apply]
  show V c main_v28 (((cfg1.win 0).blk t).view.emb (ix2 r q)) = V c main_v28 (ix2 (rowOf t r) q)
  refine congrArg (V c main_v28) (funext fun a => Fin.ext ?_)
  match a with
  | ⟨0, _⟩ => show win1_0.index t (0 : Fin 2) * 4000 + 1 * r.val = t.val * 4000 + r.val; omega
  | ⟨1, _⟩ => show win1_0.index t (1 : Fin 2) * 128 + 1 * q.val = q.val; omega

/-- Entry `(r, q)` of the output block at point `t` sits at `(4000·t + r, q)` of the result array. -/
theorem blk_out (t : Fin cfg1.N) (r : Fin 4000) (q : Fin 128) :
    ((cfg1.win 1).blk t).view.emb (ix2 r q) = (ix2 (rowOf t r) q : S20000x128.Idx) := by
  obtain ⟨-, -, e2, e3⟩ := idx_facts t
  refine funext fun a => Fin.ext ?_
  match a with
  | ⟨0, _⟩ => show win1_1.index t (0 : Fin 2) * 4000 + 1 * r.val = t.val * 4000 + r.val; omega
  | ⟨1, _⟩ => show win1_1.index t (1 : Fin 2) * 128 + 1 * q.val = q.val; omega

/-- What point `t` writes back is block `t` of the normalised input array as the region finds it. -/
theorem flushed_eq (c : Dev nD) (t : Fin cfg1.N) :
    (dat1 V c).flushed 1 t = ((cfg1.win 1).blk t).view.read (Elt Ideal) (normed (V c main_v28)) := by
  show (cfg1.win 1).cut (grid1.coords t) ((dat1 V c).after 1 t) = _
  rw [after1_1]
  unfold out1_1
  rw [View.canon_unit_zero hz]
  simp only [View.ld_unit_zero (S := S4000x128) hz]
  refine funext fun (j : S4000x128.Idx) => ?_
  obtain ⟨r, q, rfl⟩ : ∃ (r : Fin 4000) (q : Fin 128), j = ix2 r q := ⟨j 0, j 1, eq_ix2 j⟩
  obtain ⟨h, d, rfl⟩ : ∃ (h : Fin 8) (d : Fin 16), q = col h d := ⟨headOf q, compOf q, (col_head_comp q).symm⟩
  refine (Body.norm_apply _ r h d).trans ?_
  rw [View.read_apply]
  refine Eq.trans ?_ (congrArg (normed (V c main_v28)) (blk_out t r (col h d))).symm
  rw [normed_apply]
  simp only [blk_in]

/-- An index of the result array is in point `t`'s block iff its row is in the block's range. -/
theorem mem_blk (t : Fin cfg1.N) (i : S20000x128.Idx) :
    i ∈ ((cfg1.win 1).blk t).view.set ↔ ∀ a : Fin 2, win1_1.index t a * S4000x128.size a ≤ (i a).val ∧ (i a).val < win1_1.index t a * S4000x128.size a + S4000x128.size a := by
  show i ∈ ((View.whole main_v29).slice (win1_1.rect t)).set ↔ _
  rw [View.set_slice_whole, Rect.mem_set_unit]
  exact Iff.rfl

/-- Every entry of the result array is in the block of the point its row falls in. -/
theorem cover (i : S20000x128.Idx) : ∃ t : Fin cfg1.N, (cfg1.win 1).flush t = true ∧ i ∈ ((cfg1.win 1).blk t).view.set := by
  have h0 : (i 0).val < 20000 := (i 0).isLt
  have h1 : (i 1).val < 128 := (i 1).isLt
  have hN : grid1.N = 5 := N_1
  let t : Fin cfg1.N := ⟨(i 0).val / 4000, by show (i 0).val / 4000 < grid1.N; omega⟩
  obtain ⟨-, -, e2, e3⟩ := idx_facts t
  refine ⟨t, flush1_1 t, ?_⟩
  rw [mem_blk]
  intro a
  match a with
  | ⟨0, _⟩ =>
    show win1_1.index t (0 : Fin 2) * 4000 ≤ (i 0).val ∧ (i 0).val < win1_1.index t (0 : Fin 2) * 4000 + 4000
    have ht : t.val = (i 0).val / 4000 := rfl
    omega
  | ⟨1, _⟩ => show win1_1.index t (1 : Fin 2) * 128 ≤ (i 1).val ∧ (i 1).val < win1_1.index t (1 : Fin 2) * 128 + 128; omega

/-- The result array after the region: the normalised input array as the region finds it. -/
theorem final (c : Dev nD) : (dat1 V c).arrAt 1 cfg1.N = normed (V c main_v28) :=
  (dat1 V c).arrAt_eq_of_cover 1 (normed (V c main_v28)) (fun t _ => flushed_eq V c t) cover

end Cert.KernelIdeal.NormArray

end
-- ==== Proof.KMem.lean ====
/-
  The kernel program's buffers at its segment boundaries, as the host functions of the launch memory.

  The contents at each boundary are a fold from the launch memory: a stretch of host operations applies its operations,
  a region replaces its output array by what its write-backs leave. Read at the buffers that matter: the two regions'
  input arrays, the first region's weights, and the two results.
-/
import proofs.«166031_j6889127542846_2_alg».proof.Proof.Gen.KernelIdeal.Frame
import proofs.«166031_j6889127542846_2_alg».proof.Proof.HostFns
import proofs.«166031_j6889127542846_2_alg».proof.Proof.EdgeArray
import proofs.«166031_j6889127542846_2_alg».proof.Proof.NormArray
import Idealize.ShloMosaic.Lib.StableHlo.Run

set_option maxRecDepth 16384

noncomputable section

namespace Cert.KernelIdeal.KMem

open Cert.KernelIdeal Cert.KernelIdeal.Gen Cert.KernelIdeal.HostFns
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- No host operation before the first region writes the edge features. -/
theorem W4_arg1 (c : Dev nD) : W4 m ρ c (Proc.devRef .tc main_arg1) = m ((c : Thread nD τ).loc main_arg1) := by
  dsimp only [W4, W3, W2, W1, hostOps0, hostOps0_1, hostOps0_2, hostOps0_3]
  after_results

/-- Nor the destination words. -/
theorem W4_arg2 (c : Dev nD) : W4 m ρ c (Proc.devRef .tc main_arg2) = m ((c : Thread nD τ).loc main_arg2) := by
  dsimp only [W4, W3, W2, W1, hostOps0, hostOps0_1, hostOps0_2, hostOps0_3]
  after_results

/-- Nor the target words. -/
theorem W4_arg3 (c : Dev nD) : W4 m ρ c (Proc.devRef .tc main_arg3) = m ((c : Thread nD τ).loc main_arg3) := by
  dsimp only [W4, W3, W2, W1, hostOps0, hostOps0_1, hostOps0_2, hostOps0_3]
  after_results

/-- The first region's first input array: the padded flattened edge features. -/
theorem W4_v9 (c : Dev nD) :
    (W4 m ρ c (Proc.devRef .tc main_v9) : S603136x128.Idx → EReal) = eftPad (m ((c : Thread nD τ).loc main_arg1)) := by
  dsimp only [W4, W3, W2, W1, hostOps0, hostOps0_1, hostOps0_2, hostOps0_3]
  after_results
  rfl

set_option maxHeartbeats 1000000 in
/-- The first region's second input array: the padded destination rows of the flattened node features. -/
theorem W4_v10 (c : Dev nD) :
    (W4 m ρ c (Proc.devRef .tc main_v10) : S603136x128.Idx → EReal)
      = gatPad (m ((c : Thread nD τ).loc main_arg0)) (m ((c : Thread nD τ).loc main_arg2)) := by
  dsimp only [W4, W3, W2, W1, hostOps0, hostOps0_1, hostOps0_2, hostOps0_3]
  after_results
  rfl

/-- The first region leaves the edge features as they were … -/
theorem W5_arg1 (c : Dev nD) : W5 m ρ c (Proc.devRef .tc main_arg1) = m ((c : Thread nD τ).loc main_arg1) :=
  (W5_of_ne m ρ c main_arg1 (by decide)).trans (W4_arg1 m ρ c)
/-- … and the destination words … -/
theorem W5_arg2 (c : Dev nD) : W5 m ρ c (Proc.devRef .tc main_arg2) = m ((c : Thread nD τ).loc main_arg2) :=
  (W5_of_ne m ρ c main_arg2 (by decide)).trans (W4_arg2 m ρ c)
/-- … and the target words. -/
theorem W5_arg3 (c : Dev nD) : W5 m ρ c (Proc.devRef .tc main_arg3) = m ((c : Thread nD τ).loc main_arg3) :=
  (W5_of_ne m ρ c main_arg3 (by decide)).trans (W4_arg3 m ρ c)

/-- The first region's result array: the softmax weights of the rows of its two padded input arrays. -/
theorem W5_v11 (c : Dev nD) :
    (W5 m ρ c (Proc.devRef .tc main_v11) : S8x603136.Idx → EReal)
      = EdgeArray.weights (eftPad (m ((c : Thread nD τ).loc main_arg1)))
          (gatPad (m ((c : Thread nD τ).loc main_arg0)) (m ((c : Thread nD τ).loc main_arg2))) := by
  refine (W5_arr m ρ c 2).trans ?_
  refine (EdgeArray.final (V4 m ρ) c).trans ?_
  exact congr (congrArg EdgeArray.weights (W4_v9 m ρ c)) (W4_v10 m ρ c)

set_option maxHeartbeats 1000000 in
/-- The second region's input array: the target rows of the collected features. -/
theorem W6_v28 (c : Dev nD) :
    (W6 m ρ c (Proc.devRef .tc main_v28) : S20000x128.Idx → EReal)
      = gathered (W5 m ρ c (Proc.devRef .tc main_v11)) (W5 m ρ c (Proc.devRef .tc main_arg1))
          (W5 m ρ c (Proc.devRef .tc main_arg2)) (W5 m ρ c (Proc.devRef .tc main_arg3)) := by
  dsimp only [W6, hostOps1]
  after_results
  rfl

/-- The second result: the weights, one row per edge, with a unit axis appended. -/
theorem W6_v14 (c : Dev nD) :
    (W6 m ρ c (Proc.devRef .tc main_v14) : S600000x8x1.Idx → EReal) = att1 (W5 m ρ c (Proc.devRef .tc main_v11)) := by
  dsimp only [W6, hostOps1]
  after_results
  rfl

/-- The second region does not touch the second result … -/
theorem W7_v14 (c : Dev nD) : W7 m ρ c (Proc.devRef .tc main_v14) = W6 m ρ c (Proc.devRef .tc main_v14) :=
  W7_of_ne m ρ c main_v14 (by decide)

/-- … nor does the last reshape. -/
theorem W8_v14 (c : Dev nD) : W8 m ρ c (Proc.devRef .tc main_v14) = W7 m ρ c (Proc.devRef .tc main_v14) := by
  dsimp only [W8, hostOps2]
  after_results

/-- The first result: the second region's result array, its rows unflattened. -/
theorem W8_v30 (c : Dev nD) :
    (W8 m ρ c (Proc.devRef .tc main_v30) : S20000x8x16.Idx → EReal) = unflat (W7 m ρ c (Proc.devRef .tc main_v29)) := by
  dsimp only [W8, hostOps2]
  after_results
  rfl

/-- The second region's result array: its input array normalised row by row. -/
theorem W7_v29 (c : Dev nD) :
    (W7 m ρ c (Proc.devRef .tc main_v29) : S20000x128.Idx → EReal)
      = NormArray.normed (W6 m ρ c (Proc.devRef .tc main_v28)) :=
  (W7_arr m ρ c 1).trans (NormArray.final (V6 m ρ) c)

end Cert.KernelIdeal.KMem

end
-- ==== Proof.LibRowGather.lean ====
import Idealize.ShloMosaic.Lib.ValueIdx

/-!
# A gather of whole rows, read at an index

`stablehlo.gather` with offset axes the result's trailing ones, collapsed slice axis `[0]`, start index map `[0]`,
index vector axis `1` and slice sizes one row: what `x[idx]` lowers to for an operand `x : [N, C]` (or
`[N, H, D]`) and a column `idx : [E, 1]` of row numbers. StableHLO's operand index is, axis by axis, the clamped
start plus the batching coordinate plus the offset coordinate. Here there is no batching axis; on axis 0 (named by the
start index map, collapsed) the start is the word `idx[e, 0]` read as a signed integer, taken as a natural number
(a negative one is `0`) and clamped to `N − 1` so that the one-row slice fits, and the offset coordinate is `0`;
on every other axis (not named by the start index map, kept) the start is `0` and the offset coordinate is the
result's own coordinate on that axis. So result entry `(e, c)` is `x (min idx[e, 0] (N − 1), c)`:
`gather_rows2_apply` for a rank-2 operand, `gather_rows3_apply` for a rank-3 one. The rank-1 case (no kept axis) is
the library's `gather_take_apply`.
-/

noncomputable section
open scoped BigOperators
open Idealize.ShloMosaic Idealize.ShloMosaic.ValueIdx

namespace Cert.Lib
variable {α : Type}

/-- The dimension numbers of a row gather: operand `[N, C]`, start indices `[E, 1]`, result `[E, C]`. Axis 0 of the operand
    is collapsed and is the one the start index names; axis 1 is kept whole (slice sizes `[1, C]`) and becomes the
    result's offset axis 1; the result's axis 0 runs over the start indices. The conditions `wf` are decided on a
    program's literal shapes. -/
abbrev rowGather2 (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`, rank 2: the operand's entry in column `c` of the row the start index `idx[e, 0]`
    names — read signed, as a natural number, clamped into `[0, N − 1]`. On axis 0 the operand index is the clamped
    start alone (no batching axis; the axis is collapsed, so no offset); on axis 1 it is the offset coordinate `c` alone
    (the start index map does not name the axis, so the start is `0`). -/
theorem gather_rows2_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather2 N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather2 N E C wf).start (ix2 e c) idx 0 + (rowGather2 N E C wf).batchCoord (ix2 e c) 0
      + (rowGather2 N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather2 N E C wf).startIndexMap from List.mem_singleton.mpr rfl)]
    have hsi : (rowGather2 N E C wf).siIdx (ix2 e c) ⟨List.idxOf (0 : Fin 2) (rowGather2 N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather2 N E C wf).start (ix2 e c) idx 1 + (rowGather2 N E C wf).batchCoord (ix2 e c) 1
      + (rowGather2 N E C wf).offCoord (ix2 e c) 1 = c.val
    rw [GatherDims.batchCoord_eq_zero _ _ _ List.not_mem_nil]
    unfold GatherDims.start
    have h10 : (1 : Fin 2) ∉ ([0] : List (Fin 2)) := by decide
    rw [dif_neg (show ¬ (1 : Fin 2) ∈ (rowGather2 N E C wf).startIndexMap from h10)]
    unfold GatherDims.offCoord
    rw [dif_pos (show (1 : Fin 2) ∈ (rowGather2 N E C wf).sKept from
      (GatherDims.mem_sKept _ _).mpr ⟨h10, List.not_mem_nil⟩)]
    simp only [Nat.add_zero, Nat.zero_add]
    rfl

/-- The dimension numbers of a row gather of a rank-3 operand: operand `[N, H, D]`, start indices `[E, 1]`, result
    `[E, H, D]`. Axis 0 of the operand is collapsed and is the one the start index names; axes 1 and 2 are kept whole
    (slice sizes `[1, H, D]`) and become the result's offset axes 1 and 2. -/
abbrev rowGather3 (N E H D : Nat)
    (wf : GatherDims.WF ⟨3, ![N, H, D]⟩ ⟨2, ![E, 1]⟩ ⟨3, ![E, H, D]⟩ [1, 2] [0] [] [0] [] 1 ![1, H, D]) :
    GatherDims ⟨3, ![N, H, D]⟩ ⟨2, ![E, 1]⟩ ⟨3, ![E, H, D]⟩ where
  offsetDims := [1, 2]
  collapsedSliceDims := [0]
  operandBatchingDims := []
  startIndicesBatchingDims := []
  startIndexMap := [0]
  indexVectorDim := 1
  sliceSizes := ![1, H, D]
  wf := wf

/-- THE ROW GATHER READ AT `(e, h, d)`, rank 3: the operand's entry `(h, d)` of the row the start index `idx[e, 0]`
    names — read signed, as a natural number, clamped into `[0, N − 1]`. Axis 0 as in the rank-2 case; on axes 1 and 2
    the start is `0` and the offset coordinate is the result's coordinate on the offset axis in the same position. -/
theorem gather_rows3_apply {N E H D w : Nat} (hN : 0 < N)
    (wf : GatherDims.WF ⟨3, ![N, H, D]⟩ ⟨2, ![E, 1]⟩ ⟨3, ![E, H, D]⟩ [1, 2] [0] [] [0] [] 1 ![1, H, D])
    (x : (⟨3, ![N, H, D]⟩ : Shape).Idx → α) (idx : IVec ⟨2, ![E, 1]⟩ w) (e : Fin E) (h : Fin H) (d : Fin D) :
    Host.gather (rowGather3 N E H D wf) x idx (ix3 e h d)
      = x (ix3 (⟨min (idx (ix2 e (0 : Fin 1))).toInt.toNat (N - 1), by omega⟩ : Fin N) h d) := by
  unfold Host.gather
  congr 1
  funext a
  refine Fin.ext ?_
  have h10 : (1 : Fin 3) ∉ ([0] : List (Fin 3)) := by decide
  have h20 : (2 : Fin 3) ∉ ([0] : List (Fin 3)) := by decide
  match a with
  | ⟨0, _⟩ =>
    show (rowGather3 N E H D wf).start (ix3 e h d) idx 0 + (rowGather3 N E H D wf).batchCoord (ix3 e h d) 0
      + (rowGather3 N E H D wf).offCoord (ix3 e h d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowGather3 N E H D wf).startIndexMap from List.mem_singleton.mpr rfl)]
    have hsi : (rowGather3 N E H D wf).siIdx (ix3 e h d)
        ⟨List.idxOf (0 : Fin 3) (rowGather3 N E H D wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather3 N E H D wf).start (ix3 e h d) idx 1 + (rowGather3 N E H D wf).batchCoord (ix3 e h d) 1
      + (rowGather3 N E H D wf).offCoord (ix3 e h d) 1 = h.val
    rw [GatherDims.batchCoord_eq_zero _ _ _ List.not_mem_nil]
    unfold GatherDims.start
    rw [dif_neg (show ¬ (1 : Fin 3) ∈ (rowGather3 N E H D wf).startIndexMap from h10)]
    unfold GatherDims.offCoord
    rw [dif_pos (show (1 : Fin 3) ∈ (rowGather3 N E H D wf).sKept from
      (GatherDims.mem_sKept _ _).mpr ⟨h10, List.not_mem_nil⟩)]
    simp only [Nat.add_zero, Nat.zero_add]
    rfl
  | ⟨2, _⟩ =>
    show (rowGather3 N E H D wf).start (ix3 e h d) idx 2 + (rowGather3 N E H D wf).batchCoord (ix3 e h d) 2
      + (rowGather3 N E H D wf).offCoord (ix3 e h d) 2 = d.val
    rw [GatherDims.batchCoord_eq_zero _ _ _ List.not_mem_nil]
    unfold GatherDims.start
    rw [dif_neg (show ¬ (2 : Fin 3) ∈ (rowGather3 N E H D wf).startIndexMap from h20)]
    unfold GatherDims.offCoord
    rw [dif_pos (show (2 : Fin 3) ∈ (rowGather3 N E H D wf).sKept from
      (GatherDims.mem_sKept _ _).mpr ⟨h20, List.not_mem_nil⟩)]
    simp only [Nat.add_zero, Nat.zero_add]
    rfl

end Cert.Lib
end
-- ==== Proof.HostPreAt.lean ====
/-
  The host operations in front of the first region and behind the second, read at an entry.

  A row word as the gathers read it is the word wrapped: the broadcast `[E] → [E, 1]` repeats the word along the unit axis, and
  the select / signed compare / add against the two splat constants is, lane by lane, "a negative word has the node count
  added" (`rowWords2_apply`, `rowWords3_apply`). A pad with low padding 0 and no interior padding reads, at a row below the
  operand's row count, the operand there; flattening `[a, 8, 16] → [a, 128]` keeps row-major positions, so column `16·h + d`
  of row `e` is entry `(e, h, d)`. Hence the padded flattened edge features at row `e`, column `16·h + d` are the edge feature
  `(e, h, d)` (`eftPad_apply`), and the padded gathered rows there are the node feature `(h, d)` of the row the wrapped
  destination word names, read signed and clamped into `[0, 99999]` — the row gather clamps to `N − 1 = 99999` — which is the
  specification's gathered feature (`gatPad_apply`). Unflattening `[a, 128] → [a, 8, 16]` is the inverse reading (`unflat_apply`).
-/
import proofs.«166031_j6889127542846_2_alg».proof.Proof.HostFns
import proofs.«166031_j6889127542846_2_alg».proof.Proof.Spec
import proofs.«166031_j6889127542846_2_alg».proof.Proof.LibRowGather
import proofs.«166031_j6889127542846_2_alg».proof.Proof.LibSplitLast
import Idealize.ShloMosaic.Lib.KernelVsHost
import Idealize.ShloMosaic.Lib.Pipeline.Value
import Idealize.ShloMosaic.Lib.ValueIdx

noncomputable section
open scoped BigOperators
open Idealize.ShloMosaic Idealize.ShloMosaic.ValueIdx

namespace Cert.KernelIdeal.HostFns
open Cert.KernelIdeal Cert.Spec

/-- The row word of edge `e` as the gather reads it is the destination word wrapped: a negative word has 100000 added. -/
theorem rowWords2_apply (x2 : IVec S600000 32) (e : Fin 600000) (u : Fin 1) :
    rowWords2 x2 (ix2 e u) = wrap (x2 (ix1 e)) := by
  unfold rowWords2
  refine (broadcastInDim_apply _ _ _ (ix2 e u) (ix1 e) ?_).trans ?_
  · intro a
    match a with
    | ⟨0, _⟩ =>
      show e.val = if (600000 : ℕ) = 1 then 0 else e.val
      rw [if_neg (by decide)]
  · rfl

/-- The row word of target `t` as the gather reads it is the target word wrapped: a negative word has 100000 added. -/
theorem rowWords3_apply (x3 : IVec S20000 32) (t : Fin 20000) (u : Fin 1) :
    rowWords3 x3 (ix2 t u) = wrap (x3 (ix1 t)) := by
  unfold rowWords3
  refine (broadcastInDim_apply _ _ _ (ix2 t u) (ix1 t) ?_).trans ?_
  · intro a
    match a with
    | ⟨0, _⟩ =>
      show t.val = if (20000 : ℕ) = 1 then 0 else t.val
      rw [if_neg (by decide)]
  · rfl

/-- The padded flattened edge features at row `e` (below the padding), column `16·h + d`: the edge feature `(e, h, d)`. -/
theorem eftPad_apply (x1 : FVec Ideal S600000x8x16 .f32) (e : Fin 600000) (h : Fin 8) (d : Fin 16) :
    eftPad x1 (ix2 (up e) (col h d)) = x1 (ix3 e h d) := by
  unfold eftPad
  refine (pad_apply_of_inside _ _ _ _ _ _ _ (ix2 (up e) (col h d)) (ix2 e (col h d)) ?_).trans ?_
  · intro a
    match a with
    | ⟨0, _⟩ => show e.val = 0 + e.val * (0 + 1); omega
    | ⟨1, _⟩ => show (col h d).val = 0 + (col h d).val * (0 + 1); omega
  · exact Cert.Lib.shapeCast_abc_aN_apply (by decide) x1 _ e h d (col h d) rfl

/-- The padded gathered rows at row `e` (below the padding), column `16·h + d`: the node feature `(h, d)` of the row edge
    `e`'s destination word names — wrapped, read signed, clamped into `[0, 99999]`. -/
theorem gatPad_apply (x0 : FVec Ideal S100000x8x16 .f32) (x2 : IVec S600000 32) (e : Fin 600000) (h : Fin 8) (d : Fin 16) :
    gatPad x0 x2 (ix2 (up e) (col h d)) = gat x0 x2 e h d := by
  unfold gatPad
  refine (pad_apply_of_inside _ _ _ _ _ _ _ (ix2 (up e) (col h d)) (ix2 e (col h d)) ?_).trans ?_
  · intro a
    match a with
    | ⟨0, _⟩ => show e.val = 0 + e.val * (0 + 1); omega
    | ⟨1, _⟩ => show (col h d).val = 0 + (col h d).val * (0 + 1); omega
  · refine (Cert.Lib.gather_rows2_apply (N := 100000) (E := 600000) (C := 128) (by decide)
      gather_S100000x128_S600000x1_S600000x128_1_0_n_n_0_1_1128.wf
      (shapeCast S100000x128 x0 _) (rowWords2 x2) e (col h d)).trans ?_
    refine (Cert.Lib.shapeCast_abc_aN_apply (by decide) x0 _ _ h d (col h d) rfl).trans ?_
    unfold gat row
    refine congrArg (fun r : Fin 100000 => x0 (ix3 r h d)) (Fin.ext ?_)
    show min (rowWords2 x2 (ix2 e (0 : Fin 1))).toInt.toNat (100000 - 1) = min (wrap (x2 (ix1 e))).toInt.toNat 99999
    rw [rowWords2_apply]

/-- A row of 128 viewed as 8 heads of 16 components: entry `(t, h, d)` is column `16·h + d` of row `t`. -/
theorem unflat_apply (a29 : FVec Ideal S20000x128 .f32) (t : Fin 20000) (h : Fin 8) (d : Fin 16) :
    unflat a29 (ix3 t h d) = a29 (ix2 t (col h d)) := by
  unfold unflat
  exact Cert.Lib.shapeCast_aN_abc_apply (by decide) a29 _ t h d (col h d) rfl

end Cert.KernelIdeal.HostFns
end
-- ==== Proof.HostMidAt.lean ====
/-
  The host operations between the two kernel regions, read at one entry, over the extended reals.

  The first region leaves the attention weights as an `[8, 603136]` array `a11`: one row per head, one column per edge,
  the last 3136 columns being padding. Between the regions the program
    * cuts the padding columns off and transposes, so that entry `(e, h)` of the `[600000, 8]` result is `a11(h, e)`;
    * appends a unit axis: entry `(e, h, 0)` of the `[600000, 8, 1]` array is again `a11(h, e)`;
    * spreads that array over the 16 components, multiplies the edge features by it and flattens each edge's 8 · 16
      entries to a row of 128: entry `(e, 16h + d)` of the flattened messages is `x1(e, h, d) · a11(h, e)`.
  A cut, a transpose and a broadcast each read one entry of their operand, named here by its coordinates; the flattening
  keeps the row-major position.
-/
import proofs.«166031_j6889127542846_2_alg».proof.Proof.HostFns
import proofs.«166031_j6889127542846_2_alg».proof.Proof.Spec
import proofs.«166031_j6889127542846_2_alg».proof.Proof.LibSplitLast
import Idealize.ShloMosaic.Lib.Pipeline.Value
import Idealize.ShloMosaic.Lib.ValueLayout
import Idealize.ShloMosaic.Lib.ValueIdx

noncomputable section

open scoped BigOperators

open Idealize.ShloMosaic Idealize.ShloMosaic.ValueIdx

namespace Cert.KernelIdeal.HostFns

open Cert.KernelIdeal Cert.Spec

/-- The weights with the padding columns cut off, transposed: entry `(e, h)` is the weight of head `h` in column `e`. -/
theorem attT_apply (a11 : FVec Ideal S8x603136 .f32) (e : Fin 600000) (h : Fin 8) :
    attT a11 (ix2 e h) = a11 (ix2 h (up e)) := by
  unfold attT
  refine (transpose_ix2_apply _ _ e h).trans ?_
  refine extractStridedSlice_apply _ a11 _ (ix2 h e) (ix2 h (up e)) fun a => ?_
  match a with
  | ⟨0, _⟩ => exact (Nat.zero_add h.val).symm
  | ⟨1, _⟩ => exact (Nat.zero_add e.val).symm

/-- With a unit axis appended, entry `(e, h, u)` is the same weight. -/
theorem att1_apply (a11 : FVec Ideal S8x603136 .f32) (e : Fin 600000) (h : Fin 8) (u : Fin 1) :
    att1 a11 (ix3 e h u) = a11 (ix2 h (up e)) := by
  unfold att1
  refine (broadcastInDim_apply _ _ (attT a11) (ix3 e h u) (ix2 e h) fun a => ?_).trans (attT_apply a11 e h)
  match a with
  | ⟨0, _⟩ =>
    show e.val = if (600000 : ℕ) = 1 then 0 else e.val
    rw [if_neg (by decide)]
  | ⟨1, _⟩ =>
    show h.val = if (8 : ℕ) = 1 then 0 else h.val
    rw [if_neg (by decide)]

/-- The flattened messages: entry `(e, 16h + d)` is the edge feature `x1(e, h, d)` times the weight of head `h` for edge `e`. -/
theorem msgFlat_apply (a11 : FVec Ideal S8x603136 .f32) (x1 : FVec Ideal S600000x8x16 .f32)
    (e : Fin 600000) (h : Fin 8) (d : Fin 16) :
    msgFlat a11 x1 (ix2 e (col h d)) = x1 (ix3 e h d) * a11 (ix2 h (up e)) := by
  unfold msgFlat
  refine (Cert.Lib.shapeCast_abc_aN_apply (by norm_num) _ _ e h d (col h d) rfl).trans ?_
  refine congrArg (x1 (ix3 e h d) * ·) ?_
  refine (broadcastInDim_apply _ _ (att1 a11) (ix3 e h d) (ix3 e h (0 : Fin 1)) fun a => ?_).trans (att1_apply a11 e h 0)
  match a with
  | ⟨0, _⟩ =>
    show e.val = if (600000 : ℕ) = 1 then 0 else e.val
    rw [if_neg (by decide)]
  | ⟨1, _⟩ =>
    show h.val = if (8 : ℕ) = 1 then 0 else h.val
    rw [if_neg (by decide)]
  | ⟨2, _⟩ =>
    show 0 = if (1 : ℕ) = 1 then 0 else d.val
    rw [if_pos rfl]

end Cert.KernelIdeal.HostFns

end
-- ==== Proof.LibRowScatterAdd.lean ====
import Idealize.ShloMosaic.Lib.ValueIdx
import Idealize.ShloMosaic.PureOps.Ideal

/-!
# Accumulating scatters of whole rows, entry by entry, over the extended reals

An accumulating scatter adds every entry of an update array into the operand entry it lands at. Here the update array
is a stack of rows, `[E, C]` (resp. `[E, H, D]`), the operand is `[N, C]` (resp. `[N, H, D]`), and an `[E, 1]`
array of integer words says, for each update row `e`, which operand row it is added into: update entry `(e, c)` lands
at `(w e, c)`, where `w e` is the word of row `e` read as a SIGNED integer and NOT clamped. An update row whose word is
negative or at least `N` lands nowhere and contributes nothing.

Over the extended reals the order of the additions does not matter, so entry `(n, c)` of the result is

  `x (n, c) + Σ_{e : w e = n} upd (e, c)`,

written below as a sum over all update rows of an `if`. The proof has two steps: the landing index of an update entry
is computed axis by axis (start of the window plus coordinate inside the window), which says exactly when it equals a
given operand index; then the sum over the update entries that land there is split into the sum over the coordinates,
and the sums over the trailing coordinates collapse to the one term whose coordinates agree.
-/

noncomputable section
open scoped BigOperators
open Idealize.ShloMosaic Idealize.ShloMosaic.ValueIdx

namespace Cert.Lib

/-! ## Rank 2: operand `[N, C]`, words `[E, 1]`, updates `[E, C]` -/

/-- dimension numbers of an accumulating row scatter: operand [N, C], scatter indices [E, 1], updates [E, C]: the
    updates' axis 1 is the window axis, the operand's axis 0 is inserted and is the one the index words name. -/
abbrev rowScatter2 (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section R2
variable {N E C w : Nat}
  (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window of update entry `(e, c')` starts at the word of update row `e`, read signed. -/
theorem rowScatter2_start0 :
    (rowScatter2 N E C wf).start (ix2 e c') idx 0 = (idx (ix2 e (0 : Fin 1))).toInt := by
  unfold ScatterDims.start
  rw [dif_pos (show (0 : Fin 2) ∈ (rowScatter2 N E C wf).scatterDimsToOperandDims from List.mem_singleton.mpr rfl)]
  have hsi : (rowScatter2 N E C wf).siIdx (ix2 e c') ⟨List.idxOf (0 : Fin 2) (rowScatter2 N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis every window starts at `0`: the index words name rows only. -/
theorem rowScatter2_start1 :
    (rowScatter2 N E C wf).start (ix2 e c') idx 1 = 0 := by
  unfold ScatterDims.start
  rw [dif_neg]
  intro h
  exact absurd (congrArg Fin.val (List.mem_singleton.mp h)) Nat.one_ne_zero

/-- The row axis is inserted: an update entry has window coordinate `0` there. -/
theorem rowScatter2_window0 :
    (rowScatter2 N E C wf).window (ix2 e c') 0 = 0 := by
  unfold ScatterDims.window
  rw [dif_neg]
  intro h
  have := (List.mem_filter.mp h).2
  simp at this

/-- On the column axis the window coordinate of update entry `(e, c')` is its own column `c'`. -/
theorem rowScatter2_window1 :
    (rowScatter2 N E C wf).window (ix2 e c') 1 = c'.val := by
  unfold ScatterDims.window
  rw [dif_pos (show (1 : Fin 2) ∈ (rowScatter2 N E C wf).sKept from
    List.mem_filter.mpr ⟨List.mem_finRange _, by simp⟩)]
  rfl

/-- WHERE AN UPDATE ENTRY LANDS: entry `(e, c')` lands at `(n, c)` exactly when the word of row `e`, read signed, is `n`
    and the columns agree. A word outside `[0, N)` lands nowhere, so it satisfies neither side for any `n`. -/
theorem rowScatter2_resultIdx_iff (n : Fin N) (c : Fin C) :
    (rowScatter2 N E C wf).resultIdx? (ix2 e c') idx = some (ix2 n c)
      ↔ (idx (ix2 e (0 : Fin 1))).toInt = (n.val : ℤ) ∧ c' = c := by
  have s0 := rowScatter2_start0 wf idx e c'
  have s1 := rowScatter2_start1 wf idx e c'
  have w0 := rowScatter2_window0 wf e c'
  have w1 := rowScatter2_window1 wf e c'
  unfold ScatterDims.resultIdx?
  split_ifs with h
  · rw [Option.some.injEq]
    constructor
    · intro heq
      have h0 : ((rowScatter2 N E C wf).start (ix2 e c') idx 0 + (rowScatter2 N E C wf).window (ix2 e c') 0).toNat = n.val :=
        congrArg Fin.val (congrFun heq 0)
      have h1 : ((rowScatter2 N E C wf).start (ix2 e c') idx 1 + (rowScatter2 N E C wf).window (ix2 e c') 1).toNat = c.val :=
        congrArg Fin.val (congrFun heq 1)
      have p0 := (h 0).1
      rw [s0, w0] at h0 p0
      rw [s1, w1] at h1
      refine ⟨by omega, Fin.ext (by omega)⟩
    · rintro ⟨hn, hc⟩
      funext a; refine Fin.ext ?_
      match a with
      | ⟨0, _⟩ =>
        show ((rowScatter2 N E C wf).start (ix2 e c') idx 0 + (rowScatter2 N E C wf).window (ix2 e c') 0).toNat = n.val
        rw [s0, w0]; omega
      | ⟨1, _⟩ =>
        show ((rowScatter2 N E C wf).start (ix2 e c') idx 1 + (rowScatter2 N E C wf).window (ix2 e c') 1).toNat = c.val
        rw [s1, w1, hc]; omega
  · constructor
    · intro heq; exact absurd heq (by simp)
    · rintro ⟨hn, hc⟩
      refine absurd ?_ h
      intro a
      match a with
      | ⟨0, _⟩ =>
        show 0 ≤ (rowScatter2 N E C wf).start (ix2 e c') idx 0 + (rowScatter2 N E C wf).window (ix2 e c') 0
          ∧ (rowScatter2 N E C wf).start (ix2 e c') idx 0 + (rowScatter2 N E C wf).window (ix2 e c') 0 < (N : ℤ)
        rw [s0, w0]; have := n.isLt; omega
      | ⟨1, _⟩ =>
        show 0 ≤ (rowScatter2 N E C wf).start (ix2 e c') idx 1 + (rowScatter2 N E C wf).window (ix2 e c') 1
          ∧ (rowScatter2 N E C wf).start (ix2 e c') idx 1 + (rowScatter2 N E C wf).window (ix2 e c') 1 < (C : ℤ)
        rw [s1, w1]; have := c'.isLt; omega

end R2

/-- THE ROW SCATTER AT `(n, c)`, rank 2: the operand's entry plus the sum, over the update rows `e` whose word read
    signed equals `n`, of `upd (e, c)`. The sum over all update entries that land at `(n, c)` is split by coordinates
    and the column coordinate is fixed to `c` by the characterisation above. -/
theorem scatterAdd_rows2_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (rowScatter2 N E C wf) x idx upd (ix2 n c)
      = x (ix2 n c) + ∑ e : Fin E, if (idx (ix2 e (0 : Fin 1))).toInt = (n.val : ℤ) then upd (ix2 e c) else 0 := by
  show x (ix2 n c) + ∑ j ∈ Finset.univ.filter (fun j => (rowScatter2 N E C wf).resultIdx? j idx = some (ix2 n c)), upd j = _
  congr 1
  rw [Finset.sum_filter, sum_idx2]
  refine Finset.sum_congr rfl fun e _ => ?_
  have hinner : ∀ c' : Fin C,
      (if (rowScatter2 N E C wf).resultIdx? (ix2 e c') idx = some (ix2 n c) then upd (ix2 e c') else 0)
        = if c' = c then (if (idx (ix2 e (0 : Fin 1))).toInt = (n.val : ℤ) then upd (ix2 e c) else 0) else 0 := by
    intro c'
    by_cases hc : c' = c
    · subst hc
      rw [if_pos rfl]
      exact if_congr ((rowScatter2_resultIdx_iff wf idx e c' n c').trans (and_iff_left rfl)) rfl rfl
    · rw [if_neg hc, if_neg]
      intro hr
      exact hc ((rowScatter2_resultIdx_iff wf idx e c' n c).mp hr).2
  rw [Finset.sum_congr rfl fun c' _ => hinner c', Finset.sum_ite_eq' Finset.univ c]
  rw [if_pos (Finset.mem_univ c)]

/-! ## Rank 3: operand `[N, H, D]`, words `[E, 1]`, updates `[E, H, D]` -/

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- dimension numbers of an accumulating row scatter: operand [N, H, D], scatter indices [E, 1], updates [E, H, D]: the
    updates' axes 1 and 2 are the window axes, the operand's axis 0 is inserted and is the one the index words name. -/
abbrev rowScatter3 (N E H D : Nat)
    (wf : ScatterDims.WF ⟨3, ![N, H, D]⟩ ⟨2, ![E, 1]⟩ ⟨3, ![E, H, D]⟩ [1, 2] [0] [0] 1) :
    ScatterDims ⟨3, ![N, H, D]⟩ ⟨2, ![E, 1]⟩ ⟨3, ![E, H, D]⟩ where
  updateWindowDims := [1, 2]
  insertedWindowDims := [0]
  scatterDimsToOperandDims := [0]
  indexVectorDim := 1
  wf := wf

section R3
variable {N E H D w : Nat}
  (wf : ScatterDims.WF ⟨3, ![N, H, D]⟩ ⟨2, ![E, 1]⟩ ⟨3, ![E, H, D]⟩ [1, 2] [0] [0] 1)
  (idx : IVec ⟨2, ![E, 1]⟩ w) (e : Fin E) (h' : Fin H) (d' : Fin D)

/-- On the row axis the window of update entry `(e, h', d')` starts at the word of update row `e`, read signed. -/
theorem rowScatter3_start0 :
    (rowScatter3 N E H D wf).start (ix3 e h' d') idx 0 = (idx (ix2 e (0 : Fin 1))).toInt := by
  unfold ScatterDims.start
  rw [dif_pos (show (0 : Fin 3) ∈ (rowScatter3 N E H D wf).scatterDimsToOperandDims from List.mem_singleton.mpr rfl)]
  have hsi : (rowScatter3 N E H D wf).siIdx (ix3 e h' d') ⟨List.idxOf (0 : Fin 3) (rowScatter3 N E H D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the second axis every window starts at `0`. -/
theorem rowScatter3_start1 :
    (rowScatter3 N E H D wf).start (ix3 e h' d') idx 1 = 0 := by
  unfold ScatterDims.start
  rw [dif_neg]
  intro hm
  exact absurd (congrArg Fin.val (List.mem_singleton.mp hm)) Nat.one_ne_zero

/-- On the third axis every window starts at `0`. -/
theorem rowScatter3_start2 :
    (rowScatter3 N E H D wf).start (ix3 e h' d') idx 2 = 0 := by
  unfold ScatterDims.start
  rw [dif_neg]
  intro hm
  exact absurd (congrArg Fin.val (List.mem_singleton.mp hm)) (by norm_num)

/-- The row axis is inserted: an update entry has window coordinate `0` there. -/
theorem rowScatter3_window0 :
    (rowScatter3 N E H D wf).window (ix3 e h' d') 0 = 0 := by
  unfold ScatterDims.window
  rw [dif_neg]
  intro hm
  have := (List.mem_filter.mp hm).2
  simp at this

/-- On the second axis the window coordinate of update entry `(e, h', d')` is `h'`. -/
theorem rowScatter3_window1 :
    (rowScatter3 N E H D wf).window (ix3 e h' d') 1 = h'.val := by
  unfold ScatterDims.window
  rw [dif_pos (show (1 : Fin 3) ∈ (rowScatter3 N E H D wf).sKept from
    List.mem_filter.mpr ⟨List.mem_finRange _, by simp⟩)]
  rfl

/-- On the third axis the window coordinate of update entry `(e, h', d')` is `d'`. -/
theorem rowScatter3_window2 :
    (rowScatter3 N E H D wf).window (ix3 e h' d') 2 = d'.val := by
  unfold ScatterDims.window
  rw [dif_pos (show (2 : Fin 3) ∈ (rowScatter3 N E H D wf).sKept from
    List.mem_filter.mpr ⟨List.mem_finRange _, by simp⟩)]
  rfl

/-- WHERE AN UPDATE ENTRY LANDS: entry `(e, h', d')` lands at `(n, h, d)` exactly when the word of row `e`, read signed,
    is `n` and the two trailing coordinates agree. A word outside `[0, N)` lands nowhere. -/
theorem rowScatter3_resultIdx_iff (n : Fin N) (h : Fin H) (d : Fin D) :
    (rowScatter3 N E H D wf).resultIdx? (ix3 e h' d') idx = some (ix3 n h d)
      ↔ (idx (ix2 e (0 : Fin 1))).toInt = (n.val : ℤ) ∧ h' = h ∧ d' = d := by
  have s0 := rowScatter3_start0 wf idx e h' d'
  have s1 := rowScatter3_start1 wf idx e h' d'
  have s2 := rowScatter3_start2 wf idx e h' d'
  have w0 := rowScatter3_window0 wf e h' d'
  have w1 := rowScatter3_window1 wf e h' d'
  have w2 := rowScatter3_window2 wf e h' d'
  unfold ScatterDims.resultIdx?
  split_ifs with hb
  · rw [Option.some.injEq]
    constructor
    · intro heq
      have h0 : ((rowScatter3 N E H D wf).start (ix3 e h' d') idx 0 + (rowScatter3 N E H D wf).window (ix3 e h' d') 0).toNat = n.val :=
        congrArg Fin.val (congrFun heq 0)
      have h1 : ((rowScatter3 N E H D wf).start (ix3 e h' d') idx 1 + (rowScatter3 N E H D wf).window (ix3 e h' d') 1).toNat = h.val :=
        congrArg Fin.val (congrFun heq 1)
      have h2 : ((rowScatter3 N E H D wf).start (ix3 e h' d') idx 2 + (rowScatter3 N E H D wf).window (ix3 e h' d') 2).toNat = d.val :=
        congrArg Fin.val (congrFun heq 2)
      have p0 := (hb 0).1
      rw [s0, w0] at h0 p0
      rw [s1, w1] at h1
      rw [s2, w2] at h2
      refine ⟨by omega, Fin.ext (by omega), Fin.ext (by omega)⟩
    · rintro ⟨hn, hh, hd⟩
      funext a; refine Fin.ext ?_
      match a with
      | ⟨0, _⟩ =>
        show ((rowScatter3 N E H D wf).start (ix3 e h' d') idx 0 + (rowScatter3 N E H D wf).window (ix3 e h' d') 0).toNat = n.val
        rw [s0, w0]; omega
      | ⟨1, _⟩ =>
        show ((rowScatter3 N E H D wf).start (ix3 e h' d') idx 1 + (rowScatter3 N E H D wf).window (ix3 e h' d') 1).toNat = h.val
        rw [s1, w1, hh]; omega
      | ⟨2, _⟩ =>
        show ((rowScatter3 N E H D wf).start (ix3 e h' d') idx 2 + (rowScatter3 N E H D wf).window (ix3 e h' d') 2).toNat = d.val
        rw [s2, w2, hd]; omega
  · constructor
    · intro heq; exact absurd heq (by simp)
    · rintro ⟨hn, hh, hd⟩
      refine absurd ?_ hb
      intro a
      match a with
      | ⟨0, _⟩ =>
        show 0 ≤ (rowScatter3 N E H D wf).start (ix3 e h' d') idx 0 + (rowScatter3 N E H D wf).window (ix3 e h' d') 0
          ∧ (rowScatter3 N E H D wf).start (ix3 e h' d') idx 0 + (rowScatter3 N E H D wf).window (ix3 e h' d') 0 < (N : ℤ)
        rw [s0, w0]; have := n.isLt; omega
      | ⟨1, _⟩ =>
        show 0 ≤ (rowScatter3 N E H D wf).start (ix3 e h' d') idx 1 + (rowScatter3 N E H D wf).window (ix3 e h' d') 1
          ∧ (rowScatter3 N E H D wf).start (ix3 e h' d') idx 1 + (rowScatter3 N E H D wf).window (ix3 e h' d') 1 < (H : ℤ)
        rw [s1, w1]; have := h'.isLt; omega
      | ⟨2, _⟩ =>
        show 0 ≤ (rowScatter3 N E H D wf).start (ix3 e h' d') idx 2 + (rowScatter3 N E H D wf).window (ix3 e h' d') 2
          ∧ (rowScatter3 N E H D wf).start (ix3 e h' d') idx 2 + (rowScatter3 N E H D wf).window (ix3 e h' d') 2 < (D : ℤ)
        rw [s2, w2]; have := d'.isLt; omega

end R3

/-- THE ROW SCATTER AT `(n, h, d)`, rank 3: the operand's entry plus the sum, over the update rows `e` whose word read
    signed equals `n`, of `upd (e, h, d)`. -/
theorem scatterAdd_rows3_apply {N E H D w : Nat} {φ : FTy}
    (wf : ScatterDims.WF ⟨3, ![N, H, D]⟩ ⟨2, ![E, 1]⟩ ⟨3, ![E, H, D]⟩ [1, 2] [0] [0] 1)
    (x : FVec Ideal ⟨3, ![N, H, D]⟩ φ) (idx : IVec ⟨2, ![E, 1]⟩ w) (upd : FVec Ideal ⟨3, ![E, H, D]⟩ φ)
    (n : Fin N) (h : Fin H) (d : Fin D) :
    Host.scatterAdd (rowScatter3 N E H D wf) x idx upd (ix3 n h d)
      = x (ix3 n h d) + ∑ e : Fin E, if (idx (ix2 e (0 : Fin 1))).toInt = (n.val : ℤ) then upd (ix3 e h d) else 0 := by
  show x (ix3 n h d) + ∑ j ∈ Finset.univ.filter (fun j => (rowScatter3 N E H D wf).resultIdx? j idx = some (ix3 n h d)), upd j = _
  congr 1
  rw [Finset.sum_filter, sum_idx3]
  refine Finset.sum_congr rfl fun e _ => ?_
  have hinner : ∀ (h' : Fin H) (d' : Fin D),
      (if (rowScatter3 N E H D wf).resultIdx? (ix3 e h' d') idx = some (ix3 n h d) then upd (ix3 e h' d') else 0)
        = if d' = d then (if h' = h then (if (idx (ix2 e (0 : Fin 1))).toInt = (n.val : ℤ) then upd (ix3 e h d) else 0) else 0) else 0 := by
    intro h' d'
    by_cases hd : d' = d
    · subst hd
      rw [if_pos rfl]
      by_cases hh : h' = h
      · subst hh
        rw [if_pos rfl]
        exact if_congr ((rowScatter3_resultIdx_iff wf idx e h' d' n h' d').trans
          ((and_congr_right_iff.mpr fun _ => and_iff_left rfl).trans (and_iff_left rfl))) rfl rfl
      · rw [if_neg hh, if_neg]
        intro hr
        exact hh ((rowScatter3_resultIdx_iff wf idx e h' d' n h d').mp hr).2.1
    · rw [if_neg hd, if_neg]
      intro hr
      exact hd ((rowScatter3_resultIdx_iff wf idx e h' d' n h d).mp hr).2.2
  have hrow : ∀ h' : Fin H,
      (∑ d' : Fin D, if (rowScatter3 N E H D wf).resultIdx? (ix3 e h' d') idx = some (ix3 n h d) then upd (ix3 e h' d') else 0)
        = if h' = h then (if (idx (ix2 e (0 : Fin 1))).toInt = (n.val : ℤ) then upd (ix3 e h d) else 0) else 0 := by
    intro h'
    rw [Finset.sum_congr rfl fun d' _ => hinner h' d', Finset.sum_ite_eq' Finset.univ d, if_pos (Finset.mem_univ d)]
  rw [Finset.sum_congr rfl fun h' _ => hrow h', Finset.sum_ite_eq' Finset.univ h, if_pos (Finset.mem_univ h)]

end Cert.Lib

end
-- ==== Proof.HostNodeAt.lean ====
/-
  The node-side host operations between the two regions, read at an entry.

  `nftFlat` adds the rows of the flattened messages into the rows of a zero array that the destination words name, a
  word being read signed and not clamped: entry `(n, q)` is the sum, over the edges `e` whose word is `n`, of the
  message entry `(e, q)` (the zero operand contributes `0`, and the words are read through the unit axis appended to
  them). `gathered` reads, for target `t`, the row of `nftFlat` that the target's wrapped word names, clamped into
  `[0, 99999]`.
-/
import proofs.«166031_j6889127542846_2_alg».proof.Proof.HostFns
import proofs.«166031_j6889127542846_2_alg».proof.Proof.Spec
import proofs.«166031_j6889127542846_2_alg».proof.Proof.LibRowScatterAdd
import proofs.«166031_j6889127542846_2_alg».proof.Proof.LibRowGather
import Idealize.ShloMosaic.Lib.ValueIdx
import Idealize.ShloMosaic.Lib.IdealHost
import Idealize.ShloMosaic.Lib.Pipeline.Value
import Idealize.ShloMosaic.PureOps.Ideal.Laws

noncomputable section
open scoped BigOperators
open Idealize.ShloMosaic Idealize.ShloMosaic.ValueIdx

namespace Cert.KernelIdeal.HostFns
open Cert.KernelIdeal Cert.Spec
open Cert.KernelIdeal.Gen

/-- What node `n` collects at flat column `q`: the sum, over the edges whose destination word read signed is `n`, of
    the flattened message's entry `(e, q)`. The scatter's operand is the zero array, so only the sum remains. -/
theorem nftFlat_flat (a11 : FVec Ideal S8x603136 .f32) (x1 : FVec Ideal S600000x8x16 .f32) (x2 : IVec S600000 32)
    (n : Fin 100000) (q : Fin 128) :
    nftFlat a11 x1 x2 (ix2 n q)
      = ∑ e : Fin 600000, if (x2 (ix1 e)).toInt = (n.val : ℤ) then msgFlat a11 x1 (ix2 e q) else 0 := by
  unfold nftFlat
  refine (Cert.Lib.scatterAdd_rows2_apply (N := 100000) (E := 600000) (C := 128)
    scatter_S100000x128_S600000x1_S600000x128_1_0_0_1.wf _ _ _ n q).trans ?_
  have hz : broadcastInDim S100000x128 ![] bcast_S_S100000x128 (constant (F := Ideal) S_ .f32 0x00000000#32) (ix2 n q)
      = (0 : EReal) :=
    (broadcastInDim_scalar_apply bcast_S_S100000x128 _ _).trans Ideal.ofBits_zero_f32
  have hw : ∀ e : Fin 600000,
      broadcastInDim S600000x1 ![0] bcast_S600000_S600000x1_0 x2 (ix2 e (0 : Fin 1)) = x2 (ix1 e) := by
    intro e
    refine broadcastInDim_apply ![0] bcast_S600000_S600000x1_0 x2 (ix2 e (0 : Fin 1)) (ix1 e) ?_
    intro a
    match a with
    | ⟨0, _⟩ =>
      show e.val = if (600000 : ℕ) = 1 then 0 else e.val
      rw [if_neg (by norm_num)]
  rw [hz, zero_add]
  refine Finset.sum_congr rfl fun e _ => ?_
  rw [hw e]

/-- The row read for target `t`: the collected features at the row the target's wrapped word names, read signed and
    clamped into `[0, 99999]` (the row count less one). -/
theorem gathered_apply (a11 : FVec Ideal S8x603136 .f32) (x1 : FVec Ideal S600000x8x16 .f32) (x2 : IVec S600000 32)
    (x3 : IVec S20000 32) (t : Fin 20000) (q : Fin 128) :
    gathered a11 x1 x2 x3 (ix2 t q)
      = nftFlat a11 x1 x2 (ix2 (⟨min (rowWords3 x3 (ix2 t (0 : Fin 1))).toInt.toNat 99999, by omega⟩ : Fin 100000) q) := by
  unfold gathered
  exact Cert.Lib.gather_rows2_apply (N := 100000) (E := 20000) (C := 128) (by norm_num)
    gather_S100000x128_S20000x1_S20000x128_1_0_n_n_0_1_1128.wf (nftFlat a11 x1 x2) (rowWords3 x3) t q

end Cert.KernelIdeal.HostFns
end
-- ==== Proof.KValue.lean ====
/-
  The kernel program's two results, entry by entry, are the specification's.

  The first region's weights are the softmax weights of the rows of the padded edge features against the padded
  gathered node features; at a column that is an edge the padding plays no part, so the weight is `att e h`. The
  messages, their sums per destination node and the target rows follow the specification line by line, and the second
  region normalises each target row over the heads.
-/
import proofs.«166031_j6889127542846_2_alg».proof.Proof.KMem
import proofs.«166031_j6889127542846_2_alg».proof.Proof.HostPreAt
import proofs.«166031_j6889127542846_2_alg».proof.Proof.HostMidAt
import proofs.«166031_j6889127542846_2_alg».proof.Proof.HostNodeAt

set_option maxRecDepth 16384

noncomputable section

open scoped BigOperators

namespace Cert.KernelIdeal.KValue

open Cert.KernelIdeal Cert.KernelIdeal.Gen Cert.KernelIdeal.HostFns Cert.KernelIdeal.KMem Cert.Spec
open Idealize.ShloMosaic Idealize.ShloMosaic.TcCoe Idealize.ShloMosaic.ValueIdx
open Idealize.SL Idealize.SL.Sem

/-- The weight at head `h` of the column that is edge `e`. -/
theorem weights_at (x0 : FVec Ideal S100000x8x16 .f32) (x1 : FVec Ideal S600000x8x16 .f32) (x2 : IVec S600000 32)
    (e : Fin 600000) (h : Fin 8) :
    EdgeArray.weights (eftPad x1) (gatPad x0 x2) (ix2 h (up e)) = att x0 x1 x2 e h := by
  unfold att sim
  show softw (fun k => ∑ d : Fin 16, eftPad x1 (ix2 (up e) (col k d)) * gatPad x0 x2 (ix2 (up e) (col k d))) h = _
  simp only [eftPad_apply, gatPad_apply]

/-- What node `n` collects, at head `h`, component `d`. -/
theorem nft_at (x0 : FVec Ideal S100000x8x16 .f32) (x1 : FVec Ideal S600000x8x16 .f32) (x2 : IVec S600000 32)
    (n : Fin 100000) (h : Fin 8) (d : Fin 16) :
    nftFlat (EdgeArray.weights (eftPad x1) (gatPad x0 x2)) x1 x2 (ix2 n (col h d)) = nft x0 x1 x2 n h d := by
  rw [nftFlat_flat]
  unfold nft msg
  refine Finset.sum_congr rfl fun e _ => ?_
  rw [msgFlat_apply, weights_at]

/-- The collected feature of target `t`. -/
theorem gathered_at (x0 : FVec Ideal S100000x8x16 .f32) (x1 : FVec Ideal S600000x8x16 .f32) (x2 : IVec S600000 32)
    (x3 : IVec S20000 32) (t : Fin 20000) (h : Fin 8) (d : Fin 16) :
    gathered (EdgeArray.weights (eftPad x1) (gatPad x0 x2)) x1 x2 x3 (ix2 t (col h d))
      = nft x0 x1 x2 (row (x3 (ix1 t))) h d := by
  rw [gathered_apply]
  have hr : (⟨min (rowWords3 x3 (ix2 t (0 : Fin 1))).toInt.toNat 99999, by omega⟩ : Fin 100000) = row (x3 (ix1 t)) := by
    apply Fin.ext
    show min (rowWords3 x3 (ix2 t (0 : Fin 1))).toInt.toNat 99999 = min (wrap (x3 (ix1 t))).toInt.toNat 99999
    rw [rowWords3_apply]
  rw [hr, nft_at]

variable (m : (ℓ : Loc nD τ sig) → Buf (Elt Ideal) ℓ) (ρ : Dev nD → PrngReg)

/-- The second result at `(e, h, u)` is the softmax weight of edge `e` at head `h`. -/
theorem res_att (c : Dev nD) (e : Fin 600000) (h : Fin 8) (u : Fin 1) :
    (W8 m ρ c (Proc.devRef .tc main_v14) : S600000x8x1.Idx → EReal) (ix3 e h u)
      = att (m ((c : Thread nD τ).loc main_arg0)) (m ((c : Thread nD τ).loc main_arg1)) (m ((c : Thread nD τ).loc main_arg2)) e h := by
  rw [W8_v14, W7_v14, W6_v14, att1_apply, W5_v11, weights_at]

/-- The first result at `(t, h, d)` is the normalised collected feature of target `t`. -/
theorem res_out (c : Dev nD) (t : Fin 20000) (h : Fin 8) (d : Fin 16) :
    (W8 m ρ c (Proc.devRef .tc main_v30) : S20000x8x16.Idx → EReal) (ix3 t h d)
      = out (m ((c : Thread nD τ).loc main_arg0)) (m ((c : Thread nD τ).loc main_arg1)) (m ((c : Thread nD τ).loc main_arg2))
          (m ((c : Thread nD τ).loc main_arg3)) t h d := by
  rw [W8_v30, unflat_apply, W7_v29, NormArray.normed_apply, W6_v28, W5_v11, W5_arg1, W5_arg2, W5_arg3]
  unfold out xt
  simp only [gathered_at]

end Cert.KernelIdeal.KValue

end
-- ==== Proof.RefValueA.lean ====
/-
  The edge half of the reference program, read at one entry over the extended reals.

  The reference turns each edge's destination word into a row of the node array (a negative word has the node count
  added once; the gather then clamps the word, read signed, into the array), multiplies the edge feature by the gathered
  row and sums over the sixteen components (the similarity), takes the softmax of the eight similarities of an edge
  against their maximum (the attention weight, the program's second result with a unit axis appended), and multiplies
  the edge feature by the weight (the message). Each stage, read at one index, is the specification's function of the
  same name.
-/
import proofs.«166031_j6889127542846_2_alg».proof.Proof.LibRowGather
import proofs.«166031_j6889127542846_2_alg».proof.Proof.LibRowReduce
import proofs.«166031_j6889127542846_2_alg».proof.Proof.Gen.ReferenceIdeal.Read
import proofs.«166031_j6889127542846_2_alg».proof.Proof.Spec
import Idealize.ShloMosaic.Lib.ValueIdx

noncomputable section

open scoped BigOperators
open Idealize.ShloMosaic Idealize.ShloMosaic.ValueIdx

namespace Cert.ReferenceIdeal.RefValue

open Cert.ReferenceIdeal Cert.ReferenceIdeal.Read Cert.Spec

variable [Cert.ReferenceIdeal.Facts]

/-- The row word of edge `e`: the destination word with the node count added once when it is negative. -/
theorem v5_at (x2 : IVec S600000 32) (e : Fin 600000) :
    val_main_v5 (F := Ideal) x2 (ix2 e (0 : Fin 1)) = wrap (x2 (ix1 e)) := by
  have hi : idx_main_v5 (ix2 e (0 : Fin 1)) = ix1 e :=
    funext fun a => Fin.ext (by match a with | ⟨0, _⟩ => rfl)
  rw [val_main_v5_apply, hi, val_main_v4_apply, val_main_v1_apply, val_main_v3_apply, val_main_v0_apply,
    val_main_v2_apply, val_main_c_apply, val_main_c_0_apply]
  rfl

/-- Reading an array at the row a word names depends on the word only. -/
theorem row_congr {α : Type} (x : (⟨3, ![100000, 8, 16]⟩ : Shape).Idx → α) (h : Fin 8) (d : Fin 16) {w w' : BitVec 32}
    (hw : w = w') (p : min w.toInt.toNat (100000 - 1) < 100000) (p' : min w'.toInt.toNat 99999 < 100000) :
    x (ix3 (⟨min w.toInt.toNat (100000 - 1), p⟩ : Fin 100000) h d)
      = x (ix3 (⟨min w'.toInt.toNat 99999, p'⟩ : Fin 100000) h d) := by
  subst hw; rfl

/-- The gathered feature of edge `e`: the node feature at the row its destination word names. -/
theorem v6_at (x0 : FVec Ideal S100000x8x16 .f32) (x2 : IVec S600000 32) (e : Fin 600000) (h : Fin 8) (d : Fin 16) :
    val_main_v6 (F := Ideal) x0 x2 (ix3 e h d) = gat x0 x2 e h d := by
  unfold val_main_v6
  refine (Cert.Lib.gather_rows3_apply (N := 100000) (E := 600000) (H := 8) (D := 16) (by norm_num)
    gather_S100000x8x16_S600000x1_S600000x8x16_12_0_n_n_0_1_1816.wf x0 (val_main_v5 (F := Ideal) x2) e h d).trans ?_
  exact row_congr x0 h d (v5_at x2 e) _ _

/-- The similarity of edge `e` at head `h`: the sum over the sixteen components of edge feature times gathered feature. -/
theorem v8_at (x0 : FVec Ideal S100000x8x16 .f32) (x1 : FVec Ideal S600000x8x16 .f32) (x2 : IVec S600000 32)
    (e : Fin 600000) (h : Fin 8) :
    val_main_v8 (F := Ideal) x0 x1 x2 (ix2 e h) = sim x0 x1 x2 e h := by
  rw [val_main_v8_apply, val_main_cst_apply, Ideal.ofBits_def, Ideal.ofBits_zero_f32, zero_add]
  unfold sim
  refine Finset.sum_congr rfl fun k _ => ?_
  have hi : idx_main_v8 (ix2 e h) k = ix3 e h k :=
    funext fun a => Fin.ext (by match a with | ⟨0, _⟩ => rfl | ⟨1, _⟩ => rfl | ⟨2, _⟩ => rfl)
  rw [hi, val_main_v7_apply, v6_at]
  rfl

/-- The largest similarity of edge `e` over the eight heads; taking the maximum with -∞ once more changes nothing,
    the fold already starts there. -/
theorem v11_at (x0 : FVec Ideal S100000x8x16 .f32) (x1 : FVec Ideal S600000x8x16 .f32) (x2 : IVec S600000 32)
    (e : Fin 600000) :
    val_main_v11 (F := Ideal) x0 x1 x2 (ix1 e) = topOf (fun k => sim x0 x1 x2 e k) := by
  rw [val_main_v11_apply, val_main_v10_apply, val_main_cst_2_apply]
  unfold val_main_v9
  rw [Cert.Lib.hostMax_apply (val_main_v8 (F := Ideal) x0 x1 x2) (val_main_cst_1 (F := Ideal))
    Gen.reducesTo_S600000x8_S600000_d1 (by decide) Gen.h_S_ e, val_main_cst_1_apply]
  have hf : (fun j : Fin 8 => val_main_v8 (F := Ideal) x0 x1 x2 (ix2 e j)) = fun k => sim x0 x1 x2 e k :=
    funext fun j => v8_at x0 x1 x2 e j
  rw [hf, Ideal.maximumf_def, Ideal.ofBits_def]
  unfold topOf
  exact max_eq_right ((Finset.le_fold_max _).2 (Or.inl le_rfl))

/-- The exponential of a similarity against the edge's largest one. -/
theorem v15_at (x0 : FVec Ideal S100000x8x16 .f32) (x1 : FVec Ideal S600000x8x16 .f32) (x2 : IVec S600000 32)
    (e : Fin 600000) (h : Fin 8) :
    val_main_v15 (F := Ideal) x0 x1 x2 (ix2 e h)
      = Ideal.exp (sim x0 x1 x2 e h - topOf (fun k => sim x0 x1 x2 e k)) := by
  have hi : idx_main_v12 (idx_main_v13 (ix2 e h)) = ix1 e :=
    funext fun a => Fin.ext (by match a with | ⟨0, _⟩ => rfl)
  rw [val_main_v15_apply, val_main_v14_apply, val_main_v13_apply, val_main_v12_apply, hi, v11_at, v8_at]
  rfl

/-- The softmax weight of edge `e` at head `h`. -/
theorem v19_at (x0 : FVec Ideal S100000x8x16 .f32) (x1 : FVec Ideal S600000x8x16 .f32) (x2 : IVec S600000 32)
    (e : Fin 600000) (h : Fin 8) :
    val_main_v19 (F := Ideal) x0 x1 x2 (ix2 e h) = att x0 x1 x2 e h := by
  have hi : idx_main_v17 (idx_main_v18 (ix2 e h)) = ix1 e :=
    funext fun a => Fin.ext (by match a with | ⟨0, _⟩ => rfl)
  have hk : ∀ k : Fin 8, idx_main_v16 (ix1 e) k = ix2 e k := fun k =>
    funext fun a => Fin.ext (by match a with | ⟨0, _⟩ => rfl | ⟨1, _⟩ => rfl)
  rw [val_main_v19_apply, val_main_v18_apply, val_main_v17_apply, hi, val_main_v16_apply, val_main_cst_3_apply,
    v15_at, Ideal.hostDivf_def, Ideal.ofBits_def, Ideal.ofBits_zero_f32, zero_add]
  unfold att softw
  refine congrArg (Ideal.div _) (Finset.sum_congr rfl fun k _ => ?_)
  rw [hk k, v15_at]

/-- The reference's second result at one entry is the specification's attention weight. -/
theorem ref_att (x0 : FVec Ideal S100000x8x16 .f32) (x1 : FVec Ideal S600000x8x16 .f32) (x2 : IVec S600000 32)
    (e : Fin 600000) (h : Fin 8) (u : Fin 1) :
    val_main_v20 (F := Ideal) x0 x1 x2 (ix3 e h u) = att x0 x1 x2 e h := by
  have hi : idx_main_v20 (ix3 e h u) = ix2 e h :=
    funext fun a => Fin.ext (by match a with | ⟨0, _⟩ => rfl | ⟨1, _⟩ => rfl)
  rw [val_main_v20_apply, hi, v19_at]

/-- The message of edge `e`: its feature times its attention weight. -/
theorem v22_at (x0 : FVec Ideal S100000x8x16 .f32) (x1 : FVec Ideal S600000x8x16 .f32) (x2 : IVec S600000 32)
    (e : Fin 600000) (h : Fin 8) (d : Fin 16) :
    val_main_v22 (F := Ideal) x0 x1 x2 (ix3 e h d) = msg x0 x1 x2 e h d := by
  have hi : idx_main_v21 (ix3 e h d) = ix3 e h (0 : Fin 1) :=
    funext fun a => Fin.ext (by match a with | ⟨0, _⟩ => rfl | ⟨1, _⟩ => rfl | ⟨2, _⟩ => rfl)
  rw [val_main_v22_apply, val_main_v21_apply, hi, ref_att]
  rfl

end Cert.ReferenceIdeal.RefValue
end
-- ==== Proof.RefValue.lean ====
/-
  The node half of the reference program, read at one entry over the extended reals.

  The reference adds every edge's message into the row of a zero array its destination word names (read signed, not
  wrapped and not clamped: a word that names no row adds nowhere), reads that array at the row each target word names
  (wrapped and clamped as array indexing does), shifts the row by the first literal, and divides by its Euclidean norm
  over the eight heads clamped below by the second literal. Each stage, read at one index, is the specification's
  function of the same name; the last is the program's first result.
-/
import proofs.«166031_j6889127542846_2_alg».proof.Proof.LibRowScatterAdd
import proofs.«166031_j6889127542846_2_alg».proof.Proof.RefValueA

noncomputable section

open scoped BigOperators
open Idealize.ShloMosaic Idealize.ShloMosaic.ValueIdx

namespace Cert.ReferenceIdeal.RefValue

open Cert.ReferenceIdeal Cert.ReferenceIdeal.Read Cert.Spec

variable [Cert.ReferenceIdeal.Facts]

/-- The scatter's word of edge `e` is the destination word itself, not wrapped. -/
theorem v24_at (x2 : IVec S600000 32) (e : Fin 600000) :
    val_main_v24 (F := Ideal) x2 (ix2 e (0 : Fin 1)) = x2 (ix1 e) := by
  have hi : idx_main_v24 (ix2 e (0 : Fin 1)) = ix1 e :=
    funext fun a => Fin.ext (by match a with | ⟨0, _⟩ => rfl)
  rw [val_main_v24_apply, hi]

/-- What node `n` collects: from zero, the messages of the edges whose destination word, read signed, is `n`. -/
theorem v25_at (x0 : FVec Ideal S100000x8x16 .f32) (x1 : FVec Ideal S600000x8x16 .f32) (x2 : IVec S600000 32)
    (n : Fin 100000) (h : Fin 8) (d : Fin 16) :
    val_main_v25 (F := Ideal) x0 x1 x2 (ix3 n h d) = nft x0 x1 x2 n h d := by
  unfold val_main_v25
  refine (Cert.Lib.scatterAdd_rows3_apply (N := 100000) (E := 600000) (H := 8) (D := 16)
    scatter_S100000x8x16_S600000x1_S600000x8x16_12_0_0_1.wf (val_main_v23 (F := Ideal))
    (val_main_v24 (F := Ideal) x2) (val_main_v22 (F := Ideal) x0 x1 x2) n h d).trans ?_
  rw [val_main_v23_apply, val_main_cst_4_apply, Ideal.ofBits_def, Ideal.ofBits_zero_f32, zero_add]
  unfold nft
  refine Finset.sum_congr rfl fun e _ => ?_
  rw [v24_at, v22_at]

/-- The row word of target `t`: the target word with the node count added once when it is negative. -/
theorem v31_at (x3 : IVec S20000 32) (t : Fin 20000) :
    val_main_v31 (F := Ideal) x3 (ix2 t (0 : Fin 1)) = wrap (x3 (ix1 t)) := by
  have hi : idx_main_v31 (ix2 t (0 : Fin 1)) = ix1 t :=
    funext fun a => Fin.ext (by match a with | ⟨0, _⟩ => rfl)
  rw [val_main_v31_apply, hi, val_main_v30_apply, val_main_v27_apply, val_main_v29_apply, val_main_v26_apply,
    val_main_v28_apply, val_main_c_5_apply, val_main_c_6_apply]
  rfl

/-- The collected feature of target `t`: what the node its word names has collected. -/
theorem v32_at (x0 : FVec Ideal S100000x8x16 .f32) (x1 : FVec Ideal S600000x8x16 .f32) (x2 : IVec S600000 32)
    (x3 : IVec S20000 32) (t : Fin 20000) (h : Fin 8) (d : Fin 16) :
    val_main_v32 (F := Ideal) x0 x1 x2 x3 (ix3 t h d) = nft x0 x1 x2 (row (x3 (ix1 t))) h d := by
  unfold val_main_v32
  refine (Cert.Lib.gather_rows3_apply (N := 100000) (E := 20000) (H := 8) (D := 16) (by norm_num)
    gather_S100000x8x16_S20000x1_S20000x8x16_12_0_n_n_0_1_1816.wf (val_main_v25 (F := Ideal) x0 x1 x2)
    (val_main_v31 (F := Ideal) x3) t h d).trans ?_
  refine (row_congr (val_main_v25 (F := Ideal) x0 x1 x2) h d (v31_at x3 t) _ (row (x3 (ix1 t))).isLt).trans ?_
  exact v25_at x0 x1 x2 (row (x3 (ix1 t))) h d

/-- The collected feature of target `t` shifted by the first literal. -/
theorem v34_at (x0 : FVec Ideal S100000x8x16 .f32) (x1 : FVec Ideal S600000x8x16 .f32) (x2 : IVec S600000 32)
    (x3 : IVec S20000 32) (t : Fin 20000) (h : Fin 8) (d : Fin 16) :
    val_main_v34 (F := Ideal) x0 x1 x2 x3 (ix3 t h d) = xt x0 x1 x2 x3 t h d := by
  rw [val_main_v34_apply, v32_at, val_main_v33_apply, val_main_cst_7_apply]
  rfl

/-- The clamped Euclidean norm over the heads of the shifted feature of target `t` at component `d`. -/
theorem v40_at (x0 : FVec Ideal S100000x8x16 .f32) (x1 : FVec Ideal S600000x8x16 .f32) (x2 : IVec S600000 32)
    (x3 : IVec S20000 32) (t : Fin 20000) (d : Fin 16) :
    val_main_v40 (F := Ideal) x0 x1 x2 x3 (ix3 t (0 : Fin 1) d)
      = max (Ideal.sqrt (∑ k : Fin 8, xt x0 x1 x2 x3 t k d * xt x0 x1 x2 x3 t k d))
          (Ideal.ofBits .f32 0x2B8CBCCC#32) := by
  have hi : idx_main_v37 (ix3 t (0 : Fin 1) d) = ix2 t d :=
    funext fun a => Fin.ext (by match a with | ⟨0, _⟩ => rfl | ⟨1, _⟩ => rfl)
  have hk : ∀ k : Fin 8, idx_main_v36 (ix2 t d) k = ix3 t k d := fun k =>
    funext fun a => Fin.ext (by match a with | ⟨0, _⟩ => rfl | ⟨1, _⟩ => rfl | ⟨2, _⟩ => rfl)
  have hs : (∑ k : Fin 8, val_main_v35 (F := Ideal) x0 x1 x2 x3 (idx_main_v36 (ix2 t d) k))
      = ∑ k : Fin 8, xt x0 x1 x2 x3 t k d * xt x0 x1 x2 x3 t k d :=
    Finset.sum_congr rfl fun k _ => by rw [hk k, val_main_v35_apply, v34_at, Ideal.mulf_def]
  rw [val_main_v40_apply, val_main_v38_apply, val_main_v37_apply, hi, val_main_v36_apply, val_main_cst_8_apply, hs,
    val_main_v39_apply, val_main_cst_9_apply, Ideal.maximumf_def, Ideal.hostUnary_sqrt_def, Ideal.ofBits_def,
    Ideal.ofBits_def, Ideal.ofBits_zero_f32, zero_add]

/-- The reference's first result at one entry is the specification's normalised output. -/
theorem ref_out (x0 : FVec Ideal S100000x8x16 .f32) (x1 : FVec Ideal S600000x8x16 .f32) (x2 : IVec S600000 32) (x3 : IVec S20000 32)
    (t : Fin 20000) (h : Fin 8) (d : Fin 16) :
    val_main_v42 (F := Ideal) x0 x1 x2 x3 (ix3 t h d) = out x0 x1 x2 x3 t h d := by
  have hi : idx_main_v41 (ix3 t h d) = ix3 t (0 : Fin 1) d :=
    funext fun a => Fin.ext (by match a with | ⟨0, _⟩ => rfl | ⟨1, _⟩ => rfl | ⟨2, _⟩ => rfl)
  rw [val_main_v42_apply, val_main_v41_apply, hi, v40_at, v34_at, Ideal.hostDivf_def]
  rfl

end Cert.ReferenceIdeal.RefValue
end
-- ==== Proof.lean ====
/-
  The certificate: a graph attention message-passing layer as a two-kernel program against its array reference.

  Both programs compute, from node features, edge features, each edge's destination word and the target words: per edge
  the softmax over the eight heads of the similarities between the edge's features and its destination node's; per node
  the sum of the incoming edges' features weighted by those; per target the collected feature shifted by a literal and
  divided by its clamped Euclidean norm over the heads. The kernel program works on rows of 128 = 8 · 16 entries — it
  flattens, gathers, pads, runs the softmax in a first region on column blocks of a transposed result, scatters and gathers
  flattened rows on the host, and normalises in a second region —; the reference works on `[., 8, 16]` arrays throughout.
  At the ideal instance both results are the specification's functions `out` and `att` of the four arguments, entry by
  entry: no law beyond re-indexing is used, so the precondition is never opened.

  The three frames are the generated ones (the reference's is its generated run with the results dropped); the ideal pass
  rewrote nothing, so `preserves` is trivial.
-/
import proofs.«166031_j6889127542846_2_alg».proof.Defs
import proofs.«166031_j6889127542846_2_alg».proof.Proof.Gen.Kernel
import proofs.«166031_j6889127542846_2_alg».proof.Proof.Gen.Kernel.Frame
import proofs.«166031_j6889127542846_2_alg».proof.Proof.Gen.KernelIdeal
import proofs.«166031_j6889127542846_2_alg».proof.Proof.Gen.KernelIdeal.Frame
import proofs.«166031_j6889127542846_2_alg».proof.Proof.Gen.ReferenceIdeal
import proofs.«166031_j6889127542846_2_alg».proof.Proof.Gen.Pre_finite_inputs
import proofs.«166031_j6889127542846_2_alg».proof.Proof.Gen.ReferenceIdeal.Run
import proofs.«166031_j6889127542846_2_alg».proof.Proof.Gen.ReferenceIdeal.Read
import proofs.«166031_j6889127542846_2_alg».proof.Proof.KRun
import proofs.«166031_j6889127542846_2_alg».proof.Proof.KValue
import proofs.«166031_j6889127542846_2_alg».proof.Proof.RefValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the four arguments both programs end with the specification's `out` and `att` of them. -/
theorem algebraic : Cert.algebraic_KernelIdeal_ReferenceIdeal := by
  intro m ρ m' ρ' _ hagree
  refine ⟨fun c => fun i : Cert.KernelIdeal.S20000x8x16.Idx =>
      Cert.Spec.out (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (i 0) (i 1) (i 2),
    fun c => fun i : Cert.KernelIdeal.S600000x8x1.Idx =>
      Cert.Spec.att (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (i 0) (i 1), ?_, ?_⟩
  · refine (θ_run Cert.KernelIdeal.defs _ _).mono (fun r h c => ?_) (Cert.KernelIdeal.KRun.run (F := Ideal) m ρ)
    obtain ⟨h30, h14, ha⟩ := h c
    refine ⟨h30.trans ?_, h14.trans ?_, ha⟩
    · refine funext fun i : Cert.KernelIdeal.S20000x8x16.Idx => ?_
      obtain ⟨t, hh, d, rfl⟩ : ∃ (t : Fin 20000) (hh : Fin 8) (d : Fin 16), i = ix3 t hh d := ⟨i 0, i 1, i 2, eq_ix3 i⟩
      exact Cert.KernelIdeal.KValue.res_out m ρ c t hh d
    · refine funext fun i : Cert.KernelIdeal.S600000x8x1.Idx => ?_
      obtain ⟨e, hh, u, rfl⟩ : ∃ (e : Fin 600000) (hh : Fin 8) (u : Fin 1), i = ix3 e hh u := ⟨i 0, i 1, i 2, eq_ix3 i⟩
      exact Cert.KernelIdeal.KValue.res_att m ρ c e hh u
  · refine (θ_run Cert.ReferenceIdeal.defs _ _).mono (fun r h c => ?_) (Cert.ReferenceIdeal.Value.run (F := Ideal) m' ρ')
    obtain ⟨h42, h20, ha⟩ := h c
    obtain ⟨g0, g1, g2, g3⟩ := hagree c
    refine ⟨h42.trans ?_, h20.trans ?_, ha⟩
    · rw [Cert.ReferenceIdeal.Read.val_main_v42_eq, g0, g1, g2, g3]
      refine funext fun i : Cert.KernelIdeal.S20000x8x16.Idx => ?_
      obtain ⟨t, hh, d, rfl⟩ : ∃ (t : Fin 20000) (hh : Fin 8) (d : Fin 16), i = ix3 t hh d := ⟨i 0, i 1, i 2, eq_ix3 i⟩
      exact Cert.ReferenceIdeal.RefValue.ref_out _ _ _ _ t hh d
    · rw [Cert.ReferenceIdeal.Read.val_main_v20_eq, g0, g1, g2]
      refine funext fun i : Cert.KernelIdeal.S600000x8x1.Idx => ?_
      obtain ⟨e, hh, u, rfl⟩ : ∃ (e : Fin 600000) (hh : Fin 8) (u : Fin 1), i = ix3 e hh u := ⟨i 0, i 1, i 2, eq_ix3 i⟩
      exact Cert.ReferenceIdeal.RefValue.ref_att _ _ _ e hh u

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
